-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x3x4096 : Shape := ⟨3, ![8, 3, 4096]⟩
abbrev S8x1x4096 : Shape := ⟨3, ![8, 1, 4096]⟩
abbrev S1x3x1024 : Shape := ⟨3, ![1, 3, 1024]⟩
abbrev S1x3x4096 : Shape := ⟨3, ![1, 3, 4096]⟩
abbrev S1x1x1024 : Shape := ⟨3, ![1, 1, 1024]⟩
abbrev S1x1x4096 : Shape := ⟨3, ![1, 1, 4096]⟩
abbrev S1x4096 : Shape := ⟨2, ![1, 4096]⟩
abbrev S3x1024 : Shape := ⟨2, ![3, 1024]⟩
abbrev S3x4096 : Shape := ⟨2, ![3, 4096]⟩
abbrev S1024 : Shape := ⟨1, ![1024]⟩
abbrev S1x1024 : Shape := ⟨2, ![1, 1024]⟩
abbrev S4096 : Shape := ⟨1, ![4096]⟩
abbrev S5x1024 : Shape := ⟨2, ![5, 1024]⟩
abbrev S5x4096 : Shape := ⟨2, ![5, 4096]⟩
abbrev S1024x5 : Shape := ⟨2, ![1024, 5]⟩
abbrev S1024x4096 : Shape := ⟨2, ![1024, 4096]⟩
abbrev S1024x1 : Shape := ⟨2, ![1024, 1]⟩
abbrev S8x4096 : Shape := ⟨2, ![8, 4096]⟩
abbrev S_ : Shape := ⟨0, ![]⟩

abbrev nBuf : Space → Nat
  | .hbm => 19
  | .vmem => 9
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x3x4096, .f32⟩
  | .hbm, ⟨3, _⟩ => ⟨S8x3x4096, .f32⟩
  | .hbm, ⟨4, _⟩ => ⟨S8x1x4096, .f32⟩
  | .hbm, ⟨5, _⟩ => ⟨S8x1x4096, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S1x3x1024, .f32⟩
  | .local _ .vmem, ⟨1, _⟩ => ⟨S1x3x1024, .f32⟩
  | .local _ .vmem, ⟨2, _⟩ => ⟨S1x3x4096, .f32⟩
  | .local _ .vmem, ⟨3, _⟩ => ⟨S1x3x4096, .f32⟩
  | .local _ .vmem, ⟨4, _⟩ => ⟨S1x1x1024, .f32⟩
  | .local _ .vmem, ⟨5, _⟩ => ⟨S1x1x1024, .f32⟩
  | .local _ .vmem, ⟨6, _⟩ => ⟨S1x1x4096, .f32⟩
  | .local _ .vmem, ⟨7, _⟩ => ⟨S1x1x4096, .f32⟩
  | .local _ .vmem, ⟨8, _⟩ => ⟨S1x4096, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v38 : BitVec 1 := Scalar.cmpi .eq arg1 c3_i32
  let v39 : BitVec 32 := Scalar.extui v38
  let c0_i32_21 : BitVec 32 := 0#32
  let v40 : BitVec 1 := Scalar.cmpi .ne v39 c0_i32_21
  v40

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S8x4096x3_S8x3x4096_0_2_1 : S8x4096x3.Transposes [0, 2, 1] S8x3x4096
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  reduces_S3x1024_S1024 : S3x1024.Reduces [0] S1024
  shapeCasts_S1024_S1x1024 : S1024.ShapeCasts S1x1024
  reduces_S3x4096_S4096 : S3x4096.Reduces [0] S4096
  shapeCasts_S4096_S1x4096 : S4096.ShapeCasts S1x4096
  concatenates_S3x1024_S1x1024_S1x1024_S5x1024_d0 : Shape.Concatenates [S3x1024, S1x1024, S1x1024] S5x1024 0
  concatenates_S3x4096_S1x4096_S1x4096_S5x4096_d0 : Shape.Concatenates [S3x4096, S1x4096, S1x4096] S5x4096 0
  transposes_S5x1024_p1_0_S1024x5 : S5x1024.Transposes [1, 0] S1024x5
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  reduces_S1024x4096_S4096 : S1024x4096.Reduces [0] S4096
  reduces_S1024x4096_S1024 : S1024x4096.Reduces [1] S1024
  shapeCasts_S1024_S1024x1 : S1024.ShapeCasts S1024x1
  transposes_S1024x1_p1_0_S1x1024 : S1024x1.Transposes [1, 0] S1x1024
  shapeCasts_S1x1024_S1024 : S1x1024.ShapeCasts S1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  shapeCasts_S1024_S1x1x1024 : S1024.ShapeCasts S1x1x1024
  shapeCasts_S1x4096_S4096 : S1x4096.ShapeCasts S4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S4096 : S1x1x4096.ShapeCasts S4096
  shapeCasts_S4096_S1x1x4096 : S4096.ShapeCasts S1x1x4096
  shapeCasts_S8x1x4096_S8x4096 : S8x1x4096.ShapeCasts S8x4096
  reducesTo_S8x4096_S_d0_1 : S8x4096.ReducesTo [0, 1] S_
  h_S_ : 0 < S_.numel
  dot_S1024x5_S5x4096_S1024x4096_1_0_0_1_n_n_wf : DotDims.WF S1024x5 S5x4096 S1024x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x1024.size a ≤ S8x3x4096.size a
  hwx0_0 : ∀ i : grid0.Coords, EltTy.bits .f32 = 32 ∨ (Rect.block (s := S8x3x4096) S1x3x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S8x3x4096.size a
  hwx0_1 : ∀ i : grid0.Coords, EltTy.bits .f32 = 32 ∨ (Rect.block (s := S8x3x4096) S1x3x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x4096.size a
  hwx0_2 : ∀ i : grid0.Coords, EltTy.bits .f32 = 32 ∨ (Rect.block (s := S8x1x4096) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)

variable [Facts₀]

def dot_S1024x5_S5x4096_S1024x4096_1_0_0_1_n_n : DotDims S1024x5 S5x4096 S1024x4096 where
  lhsContracting := [1]
  rhsContracting := [0]
  lhsNonContracting := [0]
  rhsNonContracting := [1]
  lhsBatch := []
  rhsBatch := []
  wf := dot_S1024x5_S5x4096_S1024x4096_1_0_0_1_n_n_wf

abbrev win0_0 : Pipeline.Window sig grid0 :=
  Pipeline.Window.ofSpec (Memref.whole main_v0) S1x3x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 37
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096, .f32⟩
  | .hbm, ⟨24, _⟩ => ⟨S_, .f32⟩
  | .hbm, ⟨25, _⟩ => ⟨S8x4096, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩
abbrev main_cst_9 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x4096_S_d0_1 : S8x4096.ReducesTo [0, 1] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.Spec.lean ====
/-
  The common value of the two programs, over the extended reals.

  Two sets of 4096 points of ℝ³ per batch entry, `x` and `y` (eight batch entries). For a point `p = x[b, n]`
  and a point `q = y[b, j]` the squared distance |p − q|² is written in two arrangements:

    * as ONE contraction of length five, (−2p₀, −2p₁, −2p₂, 1, |p|²) · (q₀, q₁, q₂, |q|², 1)        (`sqK`),
    * as (|p|² + |q|²) − 2 (p · q), each squared norm a sum started from zero                        (`sqR`).

  On real entries the two agree (distributivity and cancellation, which need finiteness on the extended
  reals). The result for a point of `x` is the distance to its nearest point of `y`: the root of the squared
  distance clipped below at zero, minimised over `y` — and, the clipped root being monotone, equally the clipped
  root of the least squared distance. Likewise for a point of `y` against all of `x`. The programs' scalar is
  the mean of the first family plus the mean of the second, divided by 4096 (`tail`).
-/
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

/-- Eight sets of 4096 points of ℝ³. -/
abbrev SP : Shape := ⟨3, ![8, 4096, 3]⟩
/-- One number per batch entry and point. -/
abbrev SR : Shape := ⟨2, ![8, 4096]⟩
/-- A scalar. -/
abbrev S0 : Shape := ⟨0, ![]⟩

/-- The words of the constants: 0, 1, 2, −2 and +∞ in single precision. -/
abbrev zeroW : EReal := Ideal.ofBits .f32 0x00000000#32
abbrev oneW : EReal := Ideal.ofBits .f32 0x3F800000#32
abbrev twoW : EReal := Ideal.ofBits .f32 0x40000000#32
abbrev negTwoW : EReal := Ideal.ofBits .f32 0xC0000000#32
abbrev infW : EReal := Ideal.ofBits .f32 0x7F800000#32

/-- The squared norm of point `n` of batch entry `b`, as a plain sum of three squares. -/
def normSq (x : SP.Idx → EReal) (b : Fin 8) (n : Fin 4096) : EReal :=
  ∑ d : Fin 3, x (ix3 b n d) * x (ix3 b n d)

/-- The left factor of the length-five contraction: (−2p₀, −2p₁, −2p₂, 1, |p|²). -/
def augL (x : SP.Idx → EReal) (b : Fin 8) (n : Fin 4096) : Fin 5 → EReal
  | ⟨0, _⟩ => negTwoW * x (ix3 b n (0 : Fin 3))
  | ⟨1, _⟩ => negTwoW * x (ix3 b n (1 : Fin 3))
  | ⟨2, _⟩ => negTwoW * x (ix3 b n (2 : Fin 3))
  | ⟨3, _⟩ => oneW
  | ⟨4, _⟩ => normSq x b n

/-- The right factor: (q₀, q₁, q₂, |q|², 1). -/
def augR (y : SP.Idx → EReal) (b : Fin 8) (j : Fin 4096) : Fin 5 → EReal
  | ⟨0, _⟩ => y (ix3 b j (0 : Fin 3))
  | ⟨1, _⟩ => y (ix3 b j (1 : Fin 3))
  | ⟨2, _⟩ => y (ix3 b j (2 : Fin 3))
  | ⟨3, _⟩ => normSq y b j
  | ⟨4, _⟩ => oneW

/-- The squared distance as one contraction of length five. -/
def sqK (x y : SP.Idx → EReal) (b : Fin 8) (n j : Fin 4096) : EReal :=
  ∑ k : Fin 5, augL x b n k * augR y b j k

/-- The squared distance as (|p|² + |q|²) − 2 (p · q), each squared norm summed from zero. -/
def sqR (x y : SP.Idx → EReal) (b : Fin 8) (n j : Fin 4096) : EReal :=
  ((zeroW + normSq x b n) + (zeroW + normSq y b j)) - twoW * ∑ d : Fin 3, x (ix3 b n d) * y (ix3 b j d)

/-- The root of a value clipped below at zero. -/
def clipRoot (v : EReal) : EReal := Ideal.sqrt (max v zeroW)

/-- Nearest-neighbour distance of point `n` of `x` within `y`: clip and root the least squared distance. -/
def rowK (x y : SP.Idx → EReal) (b : Fin 8) (n : Fin 4096) : EReal :=
  clipRoot ((Finset.univ : Finset (Fin 4096)).fold min ⊤ fun j => sqK x y b n j)
/-- Nearest-neighbour distance of point `j` of `y` within `x`, the same way. -/
def colK (x y : SP.Idx → EReal) (b : Fin 8) (j : Fin 4096) : EReal :=
  clipRoot ((Finset.univ : Finset (Fin 4096)).fold min ⊤ fun n => sqK x y b n j)

/-- The same two distances as the least of the clipped roots. -/
def rowR (x y : SP.Idx → EReal) (b : Fin 8) (n : Fin 4096) : EReal :=
  (Finset.univ : Finset (Fin 4096)).fold min ⊤ fun j => clipRoot (sqR x y b n j)
def colR (x y : SP.Idx → EReal) (b : Fin 8) (j : Fin 4096) : EReal :=
  (Finset.univ : Finset (Fin 4096)).fold min ⊤ fun n => clipRoot (sqR x y b n j)

/-- The four families as arrays indexed by (batch entry, point). -/
def RowK (x y : SP.Idx → EReal) : SR.Idx → EReal := fun i => rowK x y (i 0) (i 1)
def ColK (x y : SP.Idx → EReal) : SR.Idx → EReal := fun i => colK x y (i 0) (i 1)
def RowR (x y : SP.Idx → EReal) : SR.Idx → EReal := fun i => rowR x y (i 0) (i 1)
def ColR (x y : SP.Idx → EReal) : SR.Idx → EReal := fun i => colR x y (i 0) (i 1)

/-- The closing lines both programs share: the mean of the first family (its sum from zero, over 32768) plus the
    mean of the second, divided by 4096. -/
def tail (hr : SR.ReducesTo [0, 1] S0) (h0 : 0 < S0.numel) (r c : FVec Ideal SR .f32) : FVec Ideal S0 .f32 :=
  Host.divf (F := Ideal)
    (addf
      (Host.divf (F := Ideal) (Host.reduceAdd (F := Ideal) r (constant (F := Ideal) S0 .f32 0x00000000#32) hr h0)
        (constant (F := Ideal) S0 .f32 0x47000000#32))
      (Host.divf (F := Ideal) (Host.reduceAdd (F := Ideal) c (constant (F := Ideal) S0 .f32 0x00000000#32) hr h0)
        (constant (F := Ideal) S0 .f32 0x47000000#32)))
    (constant (F := Ideal) S0 .f32 0x45800000#32)

end Cert.Chamfer

end
-- ==== Proof.LibSqrtMin.lean ====
/-
  General facts about the minimum and the square root on the extended reals.

  * The extended-real square root (bottom and the negative reals go to bottom, a real `r ≥ 0` to
    `√r`, top to top) is monotone on the whole line, so it commutes with the minimum of two values
    and with the minimum of a finite family started from top: the root of the least squared
    distance is the least distance.
  * The minimum of a family indexed by 4096 positions, started from top, may be taken in four
    consecutive runs of 1024 positions, each started from top, and the four results combined one
    after the other from top: an element is below both sides exactly when it is below every member
    of the family.
  * A lane minimum over one axis of a vector, and the host's minimum-reduction over one axis, are the
    minimum over that axis's coordinates started from the initial value.
  * The single-precision word `0x7F800000` denotes the top element.
-/
import Idealize.ShloMosaic.PureOps.Ideal
import Idealize.ShloMosaic.PureOps.Ideal.Laws

noncomputable section

namespace Cert.Nearest

open Idealize.ShloMosaic

/-- The extended-real square root is monotone on the whole line. -/
theorem sqrt_mono : Monotone Ideal.sqrt := by
  intro a b hab
  induction a using EReal.rec with
  | bot => rw [Ideal.sqrt_bot]; exact bot_le
  | top =>
    have hb : b = ⊤ := top_le_iff.mp hab
    subst hb; exact le_rfl
  | coe r =>
    induction b using EReal.rec with
    | bot => exact absurd hab (by simp)
    | top => rw [Ideal.sqrt_top]; exact le_top
    | coe s =>
      have hrs : r ≤ s := EReal.coe_le_coe_iff.mp hab
      rw [Ideal.sqrt_coe, Ideal.sqrt_coe]
      by_cases hr : r < 0
      · rw [if_pos hr]; exact bot_le
      · have hs : ¬ s < 0 := fun h => hr (lt_of_le_of_lt hrs h)
        rw [if_neg hr, if_neg hs]
        exact EReal.coe_le_coe_iff.mpr (Real.sqrt_le_sqrt hrs)

/-- The root of the smaller of two values is the smaller of the two roots. -/
theorem sqrt_min (a b : EReal) : Ideal.sqrt (min a b) = min (Ideal.sqrt a) (Ideal.sqrt b) :=
  sqrt_mono.map_min

/-- The root of the minimum of a finite family (started from top) is the minimum of the roots. -/
theorem sqrt_fold_min {ι : Type} (s : Finset ι) (f : ι → EReal) :
    Ideal.sqrt (s.fold min ⊤ f) = s.fold min ⊤ (fun k => Ideal.sqrt (f k)) := by
  have h := Finset.fold_hom (op := min) (op' := min) (s := s) (b := (⊤ : EReal)) (f := f) (m := Ideal.sqrt) sqrt_min
  rw [Ideal.sqrt_top] at h
  exact h.symm

/-- The minimum over 4096 positions in four consecutive runs of 1024, combined one after the other
    from top, is the minimum over all 4096 positions. -/
theorem fold_min_four (f : Fin 4096 → EReal) (g0 g1 g2 g3 : Fin 1024 → EReal)
    (h0 : ∀ l : Fin 1024, g0 l = f ⟨l.val, by have := l.isLt; omega⟩)
    (h1 : ∀ l : Fin 1024, g1 l = f ⟨1024 + l.val, by have := l.isLt; omega⟩)
    (h2 : ∀ l : Fin 1024, g2 l = f ⟨2048 + l.val, by have := l.isLt; omega⟩)
    (h3 : ∀ l : Fin 1024, g3 l = f ⟨3072 + l.val, by have := l.isLt; omega⟩) :
    min (min (min (min ⊤ (Finset.univ.fold min ⊤ g0)) (Finset.univ.fold min ⊤ g1)) (Finset.univ.fold min ⊤ g2))
        (Finset.univ.fold min ⊤ g3)
      = Finset.univ.fold min ⊤ f := by
  apply le_antisymm
  · rw [Finset.le_fold_min]
    refine ⟨le_top, fun k _ => ?_⟩
    have hk := k.isLt
    by_cases c0 : k.val < 1024
    · refine le_trans (min_le_of_left_le (min_le_of_left_le (min_le_of_left_le (min_le_right _ _)))) ?_
      rw [Finset.fold_min_le]
      exact Or.inr ⟨⟨k.val, c0⟩, Finset.mem_univ _, le_of_eq (h0 _)⟩
    · by_cases c1 : k.val < 2048
      · refine le_trans (min_le_of_left_le (min_le_of_left_le (min_le_right _ _))) ?_
        rw [Finset.fold_min_le]
        refine Or.inr ⟨⟨k.val - 1024, by omega⟩, Finset.mem_univ _, le_of_eq ((h1 _).trans (congrArg f (Fin.ext ?_)))⟩
        show 1024 + (k.val - 1024) = k.val
        omega
      · by_cases c2 : k.val < 3072
        · refine le_trans (min_le_of_left_le (min_le_right _ _)) ?_
          rw [Finset.fold_min_le]
          refine Or.inr ⟨⟨k.val - 2048, by omega⟩, Finset.mem_univ _, le_of_eq ((h2 _).trans (congrArg f (Fin.ext ?_)))⟩
          show 2048 + (k.val - 2048) = k.val
          omega
        · refine le_trans (min_le_right _ _) ?_
          rw [Finset.fold_min_le]
          refine Or.inr ⟨⟨k.val - 3072, by omega⟩, Finset.mem_univ _, le_of_eq ((h3 _).trans (congrArg f (Fin.ext ?_)))⟩
          show 3072 + (k.val - 3072) = k.val
          omega
  · have below : ∀ (g : Fin 1024 → EReal) (o : Nat) (ho : o + 1024 ≤ 4096)
        (hg : ∀ l : Fin 1024, g l = f ⟨o + l.val, by have := l.isLt; omega⟩),
        Finset.univ.fold min ⊤ f ≤ Finset.univ.fold min ⊤ g := by
      intro g o ho hg
      rw [Finset.le_fold_min]
      refine ⟨le_top, fun l _ => ?_⟩
      rw [hg l, Finset.fold_min_le]
      exact Or.inr ⟨_, Finset.mem_univ _, le_rfl⟩
    refine le_min (le_min (le_min (le_min le_top ?_) ?_) ?_) ?_
    · exact below g0 0 (by omega) (fun l => (h0 l).trans (congrArg f (Fin.ext (by show l.val = 0 + l.val; omega))))
    · exact below g1 1024 (by omega) h1
    · exact below g2 2048 (by omega) h2
    · exact below g3 3072 (by omega) h3

/-- A lane minimum over one axis, read at a result index: the minimum, started from the accumulator's
    value, over that axis's coordinates. -/
theorem minReduce_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The host's minimum-reduction over one axis, read at a result index: the minimum, started from the
    initial value, over that axis's coordinates. -/
theorem hostMinReduce_single {φ : FTy} {s t u : Shape} {a : Fin s.rank} (x : s.Idx → Ideal φ) (init : u.Idx → Ideal φ)
    (h' : s.ReducesTo [a] t) (h : s.Reduces [a] t) (hu : 0 < u.numel) (j : t.Idx) :
    Host.reduce (FloatOps.minimumf (F := Ideal) (φ := φ)) x init h' hu j
      = (Finset.univ : Finset (Fin (s.size a))).fold min (init (Shape.Idx.first hu)) (x ∘ h.lift j) :=
  Host.reduce_eq_fold_single _ x init h' h hu j

/-- The single-precision word with all exponent bits set and no fraction denotes the top element. -/
theorem ofBits_inf : Ideal.ofBits .f32 0x7F800000#32 = (⊤ : EReal) := by
  simp [Ideal.ofBits, Ideal.ieee]

end Cert.Nearest

end
-- ==== Proof.Algebra.lean ====
/-
  The pure mathematics of the two arrangements of the squared distance.

  For real coordinates p = (p₀, p₁, p₂) and q = (q₀, q₁, q₂),

      (−2p₀) q₀ + (−2p₁) q₁ + (−2p₂) q₂ + 1 · |q|² + |p|² · 1  =  ((0 + |p|²) + (0 + |q|²)) − 2 (p · q),

  an identity of the real field. On the extended reals distributivity and cancellation fail at the
  infinite elements, so the identity is proved for arrays all of whose entries are real numbers: the six
  coordinates are replaced by real witnesses, the four constant words by the reals they denote, and the
  equation is then one between coerced reals.

  The clipped root `v ↦ √(max v 0)` is a composition of two monotone maps, so it commutes with the
  minimum of two values; it sends top to top, so it commutes with the minimum of a finite family started
  from top. Hence the clipped root of the least squared distance is the least clipped root, and with the
  first identity the two descriptions of each nearest-neighbour family agree.
-/
import proofs.«144797_j47493748359773_2_alg».proof.Proof.Spec
import proofs.«144797_j47493748359773_2_alg».proof.Proof.LibSqrtMin

noncomputable section

namespace Cert.Chamfer

open Idealize.ShloMosaic Idealize.ShloMosaic.ValueIdx

/-- every entry is a real number -/
def Finite (x : SP.Idx → EReal) : Prop := ∀ i, ∃ r : ℝ, x i = (r : EReal)

/-- The word `0x00000000` denotes the real 0. -/
theorem zeroW_eq : zeroW = ((0 : ℝ) : EReal) := by
  simp [Ideal.ofBits, Ideal.ieee]

/-- The word `0x3F800000` denotes the real 1. -/
theorem oneW_eq : oneW = ((1 : ℝ) : EReal) := by
  simp [Ideal.ofBits, Ideal.ieee, -EReal.coe_mul]; norm_num

/-- The word `0x40000000` denotes the real 2. -/
theorem twoW_eq : twoW = ((2 : ℝ) : EReal) := by
  simp [Ideal.ofBits, Ideal.ieee, -EReal.coe_mul]; norm_num

/-- The word `0xC0000000` denotes the real −2. -/
theorem negTwoW_eq : negTwoW = ((-2 : ℝ) : EReal) := by
  simp [Ideal.ofBits, Ideal.ieee, -EReal.coe_mul]; norm_num

/-- The squared norm of a point with real coordinates is the real sum of the three squares. -/
theorem normSq_coe (x : SP.Idx → EReal) (b : Fin 8) (n : Fin 4096) (p0 p1 p2 : ℝ)
    (h0 : x (ix3 b n (0 : Fin 3)) = (p0 : EReal)) (h1 : x (ix3 b n (1 : Fin 3)) = (p1 : EReal))
    (h2 : x (ix3 b n (2 : Fin 3)) = (p2 : EReal)) :
    normSq x b n = ((p0 * p0 + p1 * p1 + p2 * p2 : ℝ) : EReal) := by
  unfold normSq
  rw [Fin.sum_univ_three, h0, h1, h2]
  simp only [EReal.coe_add, EReal.coe_mul]

/-- The inner product of two points with real coordinates is the real inner product. -/
theorem dot_coe (x y : SP.Idx → EReal) (b : Fin 8) (n j : Fin 4096) (p0 p1 p2 q0 q1 q2 : ℝ)
    (h0 : x (ix3 b n (0 : Fin 3)) = (p0 : EReal)) (h1 : x (ix3 b n (1 : Fin 3)) = (p1 : EReal))
    (h2 : x (ix3 b n (2 : Fin 3)) = (p2 : EReal))
    (k0 : y (ix3 b j (0 : Fin 3)) = (q0 : EReal)) (k1 : y (ix3 b j (1 : Fin 3)) = (q1 : EReal))
    (k2 : y (ix3 b j (2 : Fin 3)) = (q2 : EReal)) :
    (∑ d : Fin 3, x (ix3 b n d) * y (ix3 b j d)) = ((p0 * q0 + p1 * q1 + p2 * q2 : ℝ) : EReal) := by
  rw [Fin.sum_univ_three, h0, h1, h2, k0, k1, k2]
  simp only [EReal.coe_add, EReal.coe_mul]

/-- On real entries the contraction of length five is the sum of the squared norms less twice the inner
    product. -/
theorem sqK_eq_sqR (x y : SP.Idx → EReal) (hx : Finite x) (hy : Finite y) (b : Fin 8) (n j : Fin 4096) :
    sqK x y b n j = sqR x y b n j := by
  obtain ⟨p0, h0⟩ := hx (ix3 b n (0 : Fin 3))
  obtain ⟨p1, h1⟩ := hx (ix3 b n (1 : Fin 3))
  obtain ⟨p2, h2⟩ := hx (ix3 b n (2 : Fin 3))
  obtain ⟨q0, k0⟩ := hy (ix3 b j (0 : Fin 3))
  obtain ⟨q1, k1⟩ := hy (ix3 b j (1 : Fin 3))
  obtain ⟨q2, k2⟩ := hy (ix3 b j (2 : Fin 3))
  have hnx := normSq_coe x b n p0 p1 p2 h0 h1 h2
  have hny := normSq_coe y b j q0 q1 q2 k0 k1 k2
  have hdot := dot_coe x y b n j p0 p1 p2 q0 q1 q2 h0 h1 h2 k0 k1 k2
  unfold sqK sqR
  rw [Fin.sum_univ_five]
  show negTwoW * x (ix3 b n (0 : Fin 3)) * y (ix3 b j (0 : Fin 3))
        + negTwoW * x (ix3 b n (1 : Fin 3)) * y (ix3 b j (1 : Fin 3))
        + negTwoW * x (ix3 b n (2 : Fin 3)) * y (ix3 b j (2 : Fin 3))
        + oneW * normSq y b j + normSq x b n * oneW
      = ((zeroW + normSq x b n) + (zeroW + normSq y b j))
        - twoW * ∑ d : Fin 3, x (ix3 b n d) * y (ix3 b j d)
  rw [hdot, hnx, hny, h0, h1, h2, k0, k1, k2, zeroW_eq, oneW_eq, twoW_eq, negTwoW_eq]
  simp only [← EReal.coe_mul, ← EReal.coe_add, ← EReal.coe_sub]
  exact congrArg _ (by ring)

/-- The clipped root is monotone. -/
theorem clipRoot_mono : Monotone clipRoot := fun _ _ hab =>
  Cert.Nearest.sqrt_mono (max_le_max hab le_rfl)

/-- The clipped root of top is top. -/
theorem clipRoot_top : clipRoot ⊤ = ⊤ := by
  unfold clipRoot
  rw [max_eq_left le_top, Ideal.sqrt_top]

/-- The clipped root of the minimum of a finite family (started from top) is the minimum of the clipped
    roots. -/
theorem clipRoot_fold_min {ι : Type} (s : Finset ι) (f : ι → EReal) :
    clipRoot (s.fold min ⊤ f) = s.fold min ⊤ (fun k => clipRoot (f k)) := by
  have h := Finset.fold_hom (op := min) (op' := min) (s := s) (b := (⊤ : EReal)) (f := f) (m := clipRoot)
    (fun a b => clipRoot_mono.map_min)
  rw [clipRoot_top] at h
  exact h.symm

/-- On real entries the two descriptions of the first nearest-neighbour family agree. -/
theorem RowK_eq_RowR (x y : SP.Idx → EReal) (hx : Finite x) (hy : Finite y) : RowK x y = RowR x y := by
  funext i
  unfold RowK RowR rowK rowR
  rw [clipRoot_fold_min]
  exact Finset.fold_congr (fun k _ => congrArg clipRoot (sqK_eq_sqR x y hx hy (i 0) (i 1) k))

/-- On real entries the two descriptions of the second nearest-neighbour family agree. -/
theorem ColK_eq_ColR (x y : SP.Idx → EReal) (hx : Finite x) (hy : Finite y) : ColK x y = ColR x y := by
  funext i
  unfold ColK ColR colK colR
  rw [clipRoot_fold_min]
  exact Finset.fold_congr (fun k _ => congrArg clipRoot (sqK_eq_sqR x y hx hy (i 0) k (i 1)))

end Cert.Chamfer

end
-- ==== Proof.Finite.lean ====
/-
  The precondition read back: every entry of the two arrays is a real number.

  The predicate compares, entry by entry, the absolute value `max a (−a)` with the word of +∞, takes the
  conjunction over all three axes from "true", once for each array, and joins the two. When the result is
  "true" both conjunctions are, so every single comparison holds. On the extended reals `max a (−a) < ⊤`
  excludes both infinite elements — at the bottom element the negation is the top element, at the top
  element the value itself is — and what remains is a real number.
-/
import proofs.«144797_j47493748359773_2_alg».proof.Proof.Algebra
import proofs.«144797_j47493748359773_2_alg».proof.Proof.Gen.Pre_finite_inputs
import Idealize.ShloMosaic.Lib.ReduceAll

noncomputable section

namespace Cert.Chamfer

open Idealize.ShloMosaic Idealize.ShloMosaic.ValueIdx

/-- An extended real whose absolute value `max a (−a)` compares below the word of +∞ is a real number. -/
theorem real_of_abs_lt_inf (a : EReal)
    (h : Ideal.cmp .olt (max a (-a)) (Ideal.ofBits .f32 0x7F800000#32) = 1#1) : ∃ r : ℝ, a = (r : EReal) := by
  rw [Cert.Nearest.ofBits_inf] at h
  induction a using EReal.rec with
  | bot => exact absurd h (by simp [Ideal.cmp])
  | top => exact absurd h (by simp [Ideal.cmp])
  | coe r => exact ⟨r, rfl⟩

/-- The result shape of a conjunction over all axes has a single index. -/
instance subsingleton_scalar_idx : Subsingleton Cert.Pre_finite_inputs.S_.Idx :=
  ⟨fun _ _ => funext fun d => d.elim0⟩

/-- When the predicate holds, every entry of both arrays is a real number. -/
theorem finite_of_pre (x y : FVec Ideal Cert.Pre_finite_inputs.S8x4096x3 .f32)
    (h : Cert.Pre_finite_inputs.fn (F := Ideal) x y = (fun _ => 1#1)) : Finite x ∧ Finite y := by
  have e := congrFun h ValueIdx.ix0
  dsimp only [Cert.Pre_finite_inputs.fn] at e
  obtain ⟨e1, e2⟩ := IntOp.andi_eq_one.1 e
  refine ⟨fun i => ?_, fun i => ?_⟩
  · exact real_of_abs_lt_inf (x i) (Host.reduce_andi_all _ _ _ _ _ e1 i)
  · exact real_of_abs_lt_inf (y i) (Host.reduce_andi_all _ _ _ _ _ e2 i)

end Cert.Chamfer

end
-- ==== Proof.RefSide.lean ====
/-
  The reference computation, read as the shared closing lines applied to the two families of
  nearest-neighbour distances in their "least of the clipped roots" form.

  For a point p = x[b, n] and a point q = y[b, j] the reference forms the squared distance as
  (|p|² + |q|²) − 2 (p · q), each squared norm a sum of three squares started from zero, clips it below at
  zero and takes the root. Every entry of the 8 × 4096 × 4096 array of clipped roots is therefore
  `clipRoot (sqR x y b n j)`: the broadcasts only re-read the two arrays of squared norms at (b, n) and at
  (b, j), and the contraction is the sum over the three coordinates.

  The two minimum-reductions, over the last axis and over the middle axis, both started from +∞, are then
  the minimum over j (for fixed b, n) and the minimum over n (for fixed b, j) of these entries: an index of
  the reduced array, with a coordinate inserted on the dropped axis, is the triple (b, n, j). These are the
  families `RowR` and `ColR`. What remains of the computation — the two means and the final division — is
  literally the shared tail.
-/
import proofs.«144797_j47493748359773_2_alg».proof.Proof.Gen.ReferenceIdeal.Read
import proofs.«144797_j47493748359773_2_alg».proof.Proof.Spec
import proofs.«144797_j47493748359773_2_alg».proof.Proof.LibSqrtMin
import Idealize.ShloMosaic.Lib.ValueIdx
import Idealize.ShloMosaic.PureOps.Ideal.Laws

noncomputable section

namespace Cert.Chamfer.Ref

open Idealize.ShloMosaic Idealize.ShloMosaic.ValueIdx Cert.ReferenceIdeal Cert.ReferenceIdeal.Gen Cert.ReferenceIdeal.Read

/-! ## Dropping one axis of the 8 × 4096 × 4096 array -/

/-- Dropping the last axis of an 8 × 4096 × 4096 array leaves an 8 × 4096 array. -/
theorem red2 : S8x4096x4096.Reduces [2] S8x4096 := by decide
/-- Dropping the middle axis of an 8 × 4096 × 4096 array leaves an 8 × 4096 array. -/
theorem red1 : S8x4096x4096.Reduces [1] S8x4096 := by decide

/-- The index (b, n) with j inserted on the last axis is (b, n, j). -/
theorem lift2 (b : Fin 8) (n j : Fin 4096) : red2.lift (ix2 b n) j = ix3 b n j :=
  funext fun a => Fin.ext (by match a with | ⟨0, _⟩ => rfl | ⟨1, _⟩ => rfl | ⟨2, _⟩ => rfl)

/-- The index (b, j) with n inserted on the middle axis is (b, n, j). -/
theorem lift1 (b : Fin 8) (n j : Fin 4096) : red1.lift (ix2 b j) n = ix3 b n j :=
  funext fun a => Fin.ext (by match a with | ⟨0, _⟩ => rfl | ⟨1, _⟩ => rfl | ⟨2, _⟩ => rfl)

/-! ## Where each operand is read for the entry (b, n, j) -/

/-- The squared norm of the left point is summed over the coordinates of point n of x: the two broadcasts
    forget j. -/
theorem ixA (b : Fin 8) (n j : Fin 4096) (k : Fin 3) :
    idx_main_v1 (idx_main_v5 (idx_main_v7 (ix3 b n j))) k = ix3 b n k :=
  funext fun a => Fin.ext (by match a with | ⟨0, _⟩ => rfl | ⟨1, _⟩ => rfl | ⟨2, _⟩ => rfl)
/-- The squared norm of the right point is summed over the coordinates of point j of y: the two broadcasts
    forget n. -/
theorem ixB (b : Fin 8) (n j : Fin 4096) (k : Fin 3) :
    idx_main_v3 (idx_main_v6 (idx_main_v8 (ix3 b n j))) k = ix3 b j k :=
  funext fun a => Fin.ext (by match a with | ⟨0, _⟩ => rfl | ⟨1, _⟩ => rfl | ⟨2, _⟩ => rfl)
/-- The contraction's left factor at coordinate k is coordinate k of point n of x. -/
theorem ixL (b : Fin 8) (n j : Fin 4096) (k : Fin 3) : lidx_main_v4 (ix3 b n j) k = ix3 b n k :=
  funext fun a => Fin.ext (by match a with | ⟨0, _⟩ => rfl | ⟨1, _⟩ => rfl | ⟨2, _⟩ => rfl)
/-- The contraction's right factor at coordinate k is coordinate k of point j of y. -/
theorem ixR (b : Fin 8) (n j : Fin 4096) (k : Fin 3) : ridx_main_v4 (ix3 b n j) k = ix3 b j k :=
  funext fun a => Fin.ext (by match a with | ⟨0, _⟩ => rfl | ⟨1, _⟩ => rfl | ⟨2, _⟩ => rfl)

/-! ## One entry of the array of clipped roots -/

/-- Entry (b, n, j) of the array of clipped roots is the clipped root of the squared distance between
    point n of x and point j of y, in the arrangement (|p|² + |q|²) − 2 (p · q). -/
theorem v15_at (x y : (⟨S8x4096x3, .f32⟩ : BufTy).Contents (Elt Ideal)) (b : Fin 8) (n j : Fin 4096) :
    val_main_v15 (F := Ideal) x y (ix3 b n j) = clipRoot (sqR x y b n j) := by
  rw [val_main_v15_apply, val_main_v14_apply, val_main_v12_apply, val_main_v9_apply, val_main_v11_apply,
    val_main_v13_apply, val_main_cst_2_apply, val_main_v10_apply, val_main_cst_1_apply, val_main_v7_apply,
    val_main_v5_apply, val_main_v1_apply, val_main_v8_apply, val_main_v6_apply, val_main_v3_apply,
    val_main_v4_apply, val_main_cst_apply, val_main_cst_0_apply]
  simp only [val_main_v0_apply, val_main_v2_apply, Ideal.hostUnary_sqrt_def, Ideal.maximumf_def, Ideal.subf_def,
    Ideal.addf_def, Ideal.mulf_def, Ideal.ofBits_def, ixA, ixB, ixL, ixR]
  rfl

/-! ## The two minimum-reductions -/

/-- The minimum over the last axis, started from +∞: for each point n of x, the least clipped root over
    the points j of y. -/
theorem v16_eq (x y : (⟨S8x4096x3, .f32⟩ : BufTy).Contents (Elt Ideal)) :
    val_main_v16 (F := Ideal) x y = Cert.Chamfer.RowR x y := by
  funext i
  obtain ⟨b, n, rfl⟩ : ∃ (b : Fin 8) (n : Fin 4096), i = ix2 b n := ⟨i 0, i 1, eq_ix2 i⟩
  unfold val_main_v16
  rw [Cert.Nearest.hostMinReduce_single _ _ reducesTo_S8x4096x4096_S8x4096_d2 red2 h_S_ (ix2 b n),
    val_main_cst_3_apply, Ideal.ofBits_def, Cert.Nearest.ofBits_inf]
  show _ = (Finset.univ : Finset (Fin 4096)).fold min ⊤ fun j => clipRoot (sqR x y b n j)
  refine Finset.fold_congr fun j _ => ?_
  exact (congrArg (val_main_v15 (F := Ideal) x y) (lift2 b n j)).trans (v15_at x y b n j)

/-- The minimum over the middle axis, started from +∞: for each point j of y, the least clipped root over
    the points n of x. -/
theorem v17_eq (x y : (⟨S8x4096x3, .f32⟩ : BufTy).Contents (Elt Ideal)) :
    val_main_v17 (F := Ideal) x y = Cert.Chamfer.ColR x y := by
  funext i
  obtain ⟨b, j, rfl⟩ : ∃ (b : Fin 8) (j : Fin 4096), i = ix2 b j := ⟨i 0, i 1, eq_ix2 i⟩
  unfold val_main_v17
  rw [Cert.Nearest.hostMinReduce_single _ _ reducesTo_S8x4096x4096_S8x4096_d1 red1 h_S_ (ix2 b j),
    val_main_cst_4_apply, Ideal.ofBits_def, Cert.Nearest.ofBits_inf]
  show _ = (Finset.univ : Finset (Fin 4096)).fold min ⊤ fun n => clipRoot (sqR x y b n j)
  refine Finset.fold_congr fun n _ => ?_
  exact (congrArg (val_main_v15 (F := Ideal) x y) (lift1 b n j)).trans (v15_at x y b n j)

/-! ## The scalar -/

/-- The reference's scalar is the shared tail of the two families: the mean of the first plus the mean of
    the second, divided by 4096. -/
theorem result_eq (x y : (⟨S8x4096x3, .f32⟩ : BufTy).Contents (Elt Ideal)) :
    val_main_v23 (F := Ideal) x y
      = Cert.Chamfer.tail reducesTo_S8x4096_S_d0_1 h_S_ (Cert.Chamfer.RowR x y) (Cert.Chamfer.ColR x y) := by
  rw [← v16_eq, ← v17_eq]
  rfl

end Cert.Chamfer.Ref

end
-- ==== Proof.KPay.lean ====
/-
  The kernel body's arithmetic read at an entry, over the extended reals.

  A block of `x` is three rows of 1024 coordinates (one row per axis of ℝ³), a block of `y` three rows of 4096.
  The body stacks, under the rows of −2·x, a row of ones and the row of squared norms |p|², and under the rows of
  `y` the row of squared norms |q|² and a row of ones; the first stack transposed times the second is, at
  (p, q), the length-five contraction (−2p₀, −2p₁, −2p₂, 1, |p|²) · (q₀, q₁, q₂, |q|², 1).
-/
import proofs.«144797_j47493748359773_2_alg».proof.Proof.Gen.KernelIdeal.Skeleton
import proofs.«144797_j47493748359773_2_alg».proof.Proof.Spec
import proofs.«144797_j47493748359773_2_alg».proof.Proof.LibSqrtMin
import Idealize.ShloMosaic.Lib.Pipeline.Value
import Idealize.ShloMosaic.Lib.ValueLayout
import Idealize.ShloMosaic.Lib.ValueIdx
import Idealize.ShloMosaic.PureOps.Ideal.Laws

noncomputable section

namespace Cert.Chamfer.Kern

open Idealize.ShloMosaic Idealize.ShloMosaic.ValueIdx
open Cert.KernelIdeal Cert.KernelIdeal.Gen

/-! ## Three pieces stacked along the rows -/

section Stack
variable {α : Type} {N : ℕ}

/-- A 3-row piece on top of two 1-row pieces: rows 0–2 of the stack are the first piece's. -/
theorem stack_top (A : (⟨2, ![3, N]⟩ : Shape).Idx → α) (B C : (⟨2, ![1, N]⟩ : Shape).Idx → α)
    (h : Shape.Concatenates [⟨2, ![3, N]⟩, ⟨2, ![1, N]⟩, ⟨2, ![1, N]⟩] ⟨2, ![5, N]⟩ 0) (r : Fin 3) (p : Fin N) :
    concatenate ⟨2, ![5, N]⟩ 0 [⟨⟨2, ![3, N]⟩, A⟩, ⟨⟨2, ![1, N]⟩, B⟩, ⟨⟨2, ![1, N]⟩, C⟩] h
        (ix2 (⟨r.val, by have := r.isLt; omega⟩ : Fin 5) p) = A (ix2 r p) :=
  concatenate_apply_piece (t := ⟨2, ![5, N]⟩) (0 : Fin 2) [⟨⟨2, ![3, N]⟩, A⟩, ⟨⟨2, ![1, N]⟩, B⟩, ⟨⟨2, ![1, N]⟩, C⟩] h _ 0 (by simp) ⟨2, ![3, N]⟩ A rfl rfl 0 rfl (ix2 r p)
    (fun b hb => match b with
      | ⟨0, _⟩ => absurd rfl hb
      | ⟨1, _⟩ => rfl)
    (Nat.zero_add _)

/-- Row 3 of the stack is the second piece's one row. -/
theorem stack_mid (A : (⟨2, ![3, N]⟩ : Shape).Idx → α) (B C : (⟨2, ![1, N]⟩ : Shape).Idx → α)
    (h : Shape.Concatenates [⟨2, ![3, N]⟩, ⟨2, ![1, N]⟩, ⟨2, ![1, N]⟩] ⟨2, ![5, N]⟩ 0) (p : Fin N) :
    concatenate ⟨2, ![5, N]⟩ 0 [⟨⟨2, ![3, N]⟩, A⟩, ⟨⟨2, ![1, N]⟩, B⟩, ⟨⟨2, ![1, N]⟩, C⟩] h
        (ix2 (3 : Fin 5) p) = B (ix2 (0 : Fin 1) p) :=
  concatenate_apply_piece (t := ⟨2, ![5, N]⟩) (0 : Fin 2) [⟨⟨2, ![3, N]⟩, A⟩, ⟨⟨2, ![1, N]⟩, B⟩, ⟨⟨2, ![1, N]⟩, C⟩] h _ 1 (by simp) ⟨2, ![1, N]⟩ B rfl rfl 3 rfl (ix2 (0 : Fin 1) p)
    (fun b hb => match b with
      | ⟨0, _⟩ => absurd rfl hb
      | ⟨1, _⟩ => rfl)
    rfl

/-- Row 4 of the stack is the third piece's one row. -/
theorem stack_bot (A : (⟨2, ![3, N]⟩ : Shape).Idx → α) (B C : (⟨2, ![1, N]⟩ : Shape).Idx → α)
    (h : Shape.Concatenates [⟨2, ![3, N]⟩, ⟨2, ![1, N]⟩, ⟨2, ![1, N]⟩] ⟨2, ![5, N]⟩ 0) (p : Fin N) :
    concatenate ⟨2, ![5, N]⟩ 0 [⟨⟨2, ![3, N]⟩, A⟩, ⟨⟨2, ![1, N]⟩, B⟩, ⟨⟨2, ![1, N]⟩, C⟩] h
        (ix2 (4 : Fin 5) p) = C (ix2 (0 : Fin 1) p) :=
  concatenate_apply_piece (t := ⟨2, ![5, N]⟩) (0 : Fin 2) [⟨⟨2, ![3, N]⟩, A⟩, ⟨⟨2, ![1, N]⟩, B⟩, ⟨⟨2, ![1, N]⟩, C⟩] h _ 2 (by simp) ⟨2, ![1, N]⟩ C rfl rfl 4 rfl (ix2 (0 : Fin 1) p)
    (fun b hb => match b with
      | ⟨0, _⟩ => absurd rfl hb
      | ⟨1, _⟩ => rfl)
    rfl

end Stack

/-! ## The sum of squares down the three rows -/

/-- The column sums of a 3-row matrix, laid out as one row: at column p the sum of the three entries. -/
theorem colSum_row_apply {N : ℕ} (v : FVec Ideal ⟨2, ![3, N]⟩ .f32)
    (h : Shape.Reduces ⟨2, ![3, N]⟩ [0] ⟨1, ![N]⟩) (hc : (⟨1, ![N]⟩ : Shape).ShapeCasts ⟨2, ![1, N]⟩)
    (hφ : FKind.Formats .f32) (hacc : (0x00000000#32 : BitVec 32) = FKind.add.neutral .f32 hφ) (p : Fin N) :
    shapeCast ⟨2, ![1, N]⟩ (multiReduction .add [0] ⟨1, ![N]⟩ v 0x00000000#32 h hφ hacc) hc (ix2 (0 : Fin 1) p)
      = ∑ d : Fin 3, v (ix2 d p) := by
  refine (shapeCast_a_1a_apply _ hc 0 p).trans ?_
  refine (Ideal.multiReduction_add_single v _ h hφ hacc (ix1 p)).trans ?_
  refine Finset.sum_congr rfl fun d _ => congrArg v (funext fun c => Fin.ext ?_)
  match c with
  | ⟨0, _⟩ => rfl
  | ⟨1, _⟩ => rfl

/-! ## The two stacked operands -/

/-- The left factor of the contraction from a 3-row matrix of coordinates: (−2v₀, −2v₁, −2v₂, 1, v₀² + v₁² + v₂²). -/
def facL {N : ℕ} (v : (⟨2, ![3, N]⟩ : Shape).Idx → EReal) (p : Fin N) : Fin 5 → EReal
  | ⟨0, _⟩ => negTwoW * v (ix2 (0 : Fin 3) p)
  | ⟨1, _⟩ => negTwoW * v (ix2 (1 : Fin 3) p)
  | ⟨2, _⟩ => negTwoW * v (ix2 (2 : Fin 3) p)
  | ⟨3, _⟩ => oneW
  | ⟨4, _⟩ => ∑ d : Fin 3, v (ix2 d p) * v (ix2 d p)

/-- The right factor: (v₀, v₁, v₂, v₀² + v₁² + v₂², 1). -/
def facR {N : ℕ} (v : (⟨2, ![3, N]⟩ : Shape).Idx → EReal) (q : Fin N) : Fin 5 → EReal
  | ⟨0, _⟩ => v (ix2 (0 : Fin 3) q)
  | ⟨1, _⟩ => v (ix2 (1 : Fin 3) q)
  | ⟨2, _⟩ => v (ix2 (2 : Fin 3) q)
  | ⟨3, _⟩ => ∑ d : Fin 3, v (ix2 d q) * v (ix2 d q)
  | ⟨4, _⟩ => oneW

/-- The body's left stack: the rows of −2·v, a row of ones, the row of column sums of squares. -/
def stackL (v1 : FVec Ideal S3x1024 .f32) : FVec Ideal S5x1024 .f32 :=
  concatenate S5x1024 0
    [⟨S3x1024, mulf (broadcast S3x1024 (Scalar.ofBits (F := Ideal) .f32 0xC0000000#32)) v1⟩,
     ⟨S1x1024, broadcast S1x1024 (Scalar.ofBits (F := Ideal) .f32 0x3F800000#32)⟩,
     ⟨S1x1024, shapeCast S1x1024 (multiReduction .add [0] S1024 (mulf v1 v1) 0x00000000#32 reduces_S3x1024_S1024 (.inl rfl) rfl)
        shapeCasts_S1024_S1x1024⟩]
    concatenates_S3x1024_S1x1024_S1x1024_S5x1024_d0

/-- The body's right stack: the rows of v, the row of column sums of squares, a row of ones. -/
def stackR (v3 : FVec Ideal S3x4096 .f32) : FVec Ideal S5x4096 .f32 :=
  concatenate S5x4096 0
    [⟨S3x4096, v3⟩,
     ⟨S1x4096, shapeCast S1x4096 (multiReduction .add [0] S4096 (mulf v3 v3) 0x00000000#32 reduces_S3x4096_S4096 (.inl rfl) rfl)
        shapeCasts_S4096_S1x4096⟩,
     ⟨S1x4096, broadcast S1x4096 (Scalar.ofBits (F := Ideal) .f32 0x3F800000#32)⟩]
    concatenates_S3x4096_S1x4096_S1x4096_S5x4096_d0

theorem stackL_apply (v1 : FVec Ideal S3x1024 .f32) (p : Fin 1024) (k : Fin 5) :
    stackL v1 (ix2 k p) = facL v1 p k := by
  unfold stackL
  match k with
  | ⟨0, _⟩ => exact stack_top _ _ _ _ (0 : Fin 3) p
  | ⟨1, _⟩ => exact stack_top _ _ _ _ (1 : Fin 3) p
  | ⟨2, _⟩ => exact stack_top _ _ _ _ (2 : Fin 3) p
  | ⟨3, _⟩ => exact stack_mid _ _ _ _ p
  | ⟨4, _⟩ => exact (stack_bot _ _ _ _ p).trans (colSum_row_apply _ _ _ _ _ p)

theorem stackR_apply (v3 : FVec Ideal S3x4096 .f32) (q : Fin 4096) (k : Fin 5) :
    stackR v3 (ix2 k q) = facR v3 q k := by
  unfold stackR
  match k with
  | ⟨0, _⟩ => exact stack_top _ _ _ _ (0 : Fin 3) q
  | ⟨1, _⟩ => exact stack_top _ _ _ _ (1 : Fin 3) q
  | ⟨2, _⟩ => exact stack_top _ _ _ _ (2 : Fin 3) q
  | ⟨3, _⟩ => exact (stack_mid _ _ _ _ q).trans (colSum_row_apply _ _ _ _ _ q)
  | ⟨4, _⟩ => exact stack_bot _ _ _ _ q

/-! ## The product -/

/-- The contraction of a 1024×5 by a 5×4096 matrix re-indexed by the five positions of the contracted axis. -/
theorem contr_sum (lhs : FVec Ideal S1024x5 .f32) (rhs : FVec Ideal S5x4096 .f32) (p : Fin 1024) (q : Fin 4096) :
    (∑ k : dot_S1024x5_S5x4096_S1024x4096_1_0_0_1_n_n.contr.Idx,
        lhs (dot_S1024x5_S5x4096_S1024x4096_1_0_0_1_n_n.lhsIdx (ix2 p q) k)
          * rhs (dot_S1024x5_S5x4096_S1024x4096_1_0_0_1_n_n.rhsIdx (ix2 p q) k))
      = ∑ k : Fin 5, lhs (ix2 p k) * rhs (ix2 k q) := by
  rw [← Equiv.sum_comp (contrEquiv1 dot_S1024x5_S5x4096_S1024x4096_1_0_0_1_n_n 5 rfl rfl).symm]
  refine Finset.sum_congr rfl fun k _ => ?_
  have hk := contrEquiv1_symm_val dot_S1024x5_S5x4096_S1024x4096_1_0_0_1_n_n 5 rfl rfl k
  have el : dot_S1024x5_S5x4096_S1024x4096_1_0_0_1_n_n.lhsIdx (ix2 p q)
      ((contrEquiv1 dot_S1024x5_S5x4096_S1024x4096_1_0_0_1_n_n 5 rfl rfl).symm k) = ix2 p k :=
    funext fun a => Fin.ext (by
      match a with
      | ⟨0, _⟩ => rfl
      | ⟨1, _⟩ => exact (dot_S1024x5_S5x4096_S1024x4096_1_0_0_1_n_n.lhsIdx_val_of_single rfl (ix2 p q) _).trans hk)
  have er : dot_S1024x5_S5x4096_S1024x4096_1_0_0_1_n_n.rhsIdx (ix2 p q)
      ((contrEquiv1 dot_S1024x5_S5x4096_S1024x4096_1_0_0_1_n_n 5 rfl rfl).symm k) = ix2 k q :=
    funext fun a => Fin.ext (by
      match a with
      | ⟨0, _⟩ => exact (dot_S1024x5_S5x4096_S1024x4096_1_0_0_1_n_n.rhsIdx_val_of_single rfl (ix2 p q) _).trans hk
      | ⟨1, _⟩ => rfl)
  rw [el, er]

/-- The body's product as the stacks' contraction. -/
theorem pay3_form (x0 : Vec Ideal S1x3x1024 .f32) (x1 : Vec Ideal S1x3x4096 .f32) :
    k0_pay3 (F := Ideal) x0 x1
      = matmul dot_S1024x5_S5x4096_S1024x4096_1_0_0_1_n_n (some .fp32)
          (transpose S1024x5 [1, 0] (stackL (shapeCast S3x1024 x0 shapeCasts_S1x3x1024_S3x1024)) transposes_S5x1024_p1_0_S1024x5)
          (stackR (shapeCast S3x4096 x1 shapeCasts_S1x3x4096_S3x4096))
          (constant (F := Ideal) S1024x4096 .f32 0x00000000#32) := rfl

/-- The squared-distance block at (p, q): the length-five contraction of the two factors. -/
theorem pay3_apply (x0 : Vec Ideal S1x3x1024 .f32) (x1 : Vec Ideal S1x3x4096 .f32) (p : Fin 1024) (q : Fin 4096) :
    k0_pay3 (F := Ideal) x0 x1 (ix2 p q)
      = ∑ k : Fin 5, facL (shapeCast S3x1024 x0 shapeCasts_S1x3x1024_S3x1024) p k
          * facR (shapeCast S3x4096 x1 shapeCasts_S1x3x4096_S3x4096) q k := by
  rw [pay3_form]
  refine (Ideal.matmul_constant_zero_apply _ _ _ _ (ix2 p q)).trans ?_
  refine (contr_sum _ _ p q).trans ?_
  refine Finset.sum_congr rfl fun k _ => ?_
  rw [transpose_ix2_apply, stackL_apply, stackR_apply]

/-! ## Two layout forms: a vector as a column, and with two leading unit axes -/

section Layout
variable {α : Type} {a : ℕ}

/-- A vector as a one-column matrix reads, at (i, u), the vector at i. -/
theorem col_of_vec_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector given two leading unit axes reads, at (u, w, i), the vector at i. -/
theorem vec_11a_apply (x : (⟨1, ![a]⟩ : Shape).Idx → α) (h : (⟨1, ![a]⟩ : Shape).ShapeCasts ⟨3, ![1, 1, a]⟩)
    (u w : Fin 1) (i : Fin a) : shapeCast ⟨3, ![1, 1, a]⟩ x h (ix3 u w i) = x (ix1 i) :=
  shapeCast_apply x h _ _ (by
    have hu : u.val = 0 := by omega
    have hw : w.val = 0 := by omega
    rw [Shape.rowMajor_val_three, Shape.rowMajor_val_one]
    show i.val = (u.val * 1 + w.val) * a + i.val
    rw [hu, hw]; simp)

end Layout

/-! ## The stored values at an entry -/

theorem sqrt_apply {s : Shape} {φ : FTy} (v : FVec Ideal s φ) (i : s.Idx) : sqrt v i = Ideal.sqrt (v i) := rfl

theorem scalar_zero : Scalar.ofBits (F := Ideal) .f32 0x00000000#32 = zeroW := rfl
theorem scalar_inf : Scalar.ofBits (F := Ideal) .f32 0x7F800000#32 = infW := rfl

/-- The row result of a block, as the body spells it. -/
theorem pay6_form (x0 : Vec Ideal S1x3x1024 .f32) (x1 : Vec Ideal S1x3x4096 .f32) :
    k0_pay6 (F := Ideal) x0 x1
      = sqrt (maximumf
          (shapeCast S1024 (transpose S1x1024 [1, 0]
              (shapeCast S1024x1 (multiReduction .minimumf [1] S1024 (k0_pay3 (F := Ideal) x0 x1) 0x7F800000#32
                reduces_S1024x4096_S1024 (.inl rfl) rfl) shapeCasts_S1024_S1024x1)
              transposes_S1024x1_p1_0_S1x1024) shapeCasts_S1x1024_S1024)
          (broadcast S1024 (Scalar.ofBits (F := Ideal) .f32 0x00000000#32))) := rfl

/-- The row result of a block: at position p, the clipped root of the least squared distance over all 4096 columns. -/
theorem pay6_apply (x0 : Vec Ideal S1x3x1024 .f32) (x1 : Vec Ideal S1x3x4096 .f32) (p : Fin 1024) :
    k0_pay6 (F := Ideal) x0 x1 (ix1 p)
      = clipRoot ((Finset.univ : Finset (Fin 4096)).fold min ⊤ fun q => k0_pay3 (F := Ideal) x0 x1 (ix2 p q)) := by
  rw [pay6_form, sqrt_apply, maximumf_apply, broadcast_apply, scalar_zero, shapeCast_1a_a_apply, transpose_ix2_apply,
    col_of_vec_apply]
  unfold clipRoot
  refine congrArg (fun v => Ideal.sqrt (max v zeroW)) ?_
  refine (Cert.Nearest.minReduce_single _ _ _ _ _ (ix1 p)).trans ?_
  show (Finset.univ : Finset (Fin 4096)).fold min (Ideal.ofBits .f32 0x7F800000#32) _ = _
  rw [Cert.Nearest.ofBits_inf]
  refine Finset.fold_congr fun q _ => congrArg (k0_pay3 (F := Ideal) x0 x1) (funext fun c => Fin.ext ?_)
  match c with
  | ⟨0, _⟩ => rfl
  | ⟨1, _⟩ => rfl

/-- The running column minima after a block, as the body spells them. -/
theorem pay5_form (x0 : Vec Ideal S1x3x1024 .f32) (x1 : Vec Ideal S1x3x4096 .f32) (acc : Vec Ideal S1x4096 .f32) :
    k0_pay5 (F := Ideal) x0 x1 acc
      = shapeCast S1x4096 (minimumf acc
          (shapeCast S1x4096 (multiReduction .minimumf [0] S4096 (k0_pay3 (F := Ideal) x0 x1) 0x7F800000#32
            reduces_S1024x4096_S4096 (.inl rfl) rfl) shapeCasts_S4096_S1x4096)) shapeCasts_S1x4096_S1x4096 := rfl

/-- The running column minima after a block: the previous running value against the block's least squared distance
    down each column. -/
theorem pay5_apply (x0 : Vec Ideal S1x3x1024 .f32) (x1 : Vec Ideal S1x3x4096 .f32) (acc : Vec Ideal S1x4096 .f32)
    (q : Fin 4096) :
    k0_pay5 (F := Ideal) x0 x1 acc (ix2 (0 : Fin 1) q)
      = min (acc (ix2 (0 : Fin 1) q))
          ((Finset.univ : Finset (Fin 1024)).fold min ⊤ fun p => k0_pay3 (F := Ideal) x0 x1 (ix2 p q)) := by
  rw [pay5_form, shapeCast_self, minimumf_apply, shapeCast_a_1a_apply]
  refine congrArg (min (acc (ix2 (0 : Fin 1) q))) ?_
  refine (Cert.Nearest.minReduce_single _ _ _ _ _ (ix1 q)).trans ?_
  show (Finset.univ : Finset (Fin 1024)).fold min (Ideal.ofBits .f32 0x7F800000#32) _ = _
  rw [Cert.Nearest.ofBits_inf]
  refine Finset.fold_congr fun p _ => congrArg (k0_pay3 (F := Ideal) x0 x1) (funext fun c => Fin.ext ?_)
  match c with
  | ⟨0, _⟩ => rfl
  | ⟨1, _⟩ => rfl

/-- The value the running minima start from: top in every column. -/
theorem pay4_apply (q : Fin 4096) : k0_pay4 (F := Ideal) (ix2 (0 : Fin 1) q) = ⊤ := by
  unfold k0_pay4
  rw [shapeCast_self, broadcast_apply, scalar_inf]
  exact Cert.Nearest.ofBits_inf

/-- The column result written at the last block of a batch entry, as the body spells it. -/
theorem pay2_form (v41 : Vec Ideal S1x4096 .f32) :
    k0_pay2 (F := Ideal) v41
      = shapeCast S1x1x4096 (sqrt (maximumf (shapeCast S4096 v41 shapeCasts_S1x4096_S4096)
          (broadcast S4096 (Scalar.ofBits (F := Ideal) .f32 0x00000000#32)))) shapeCasts_S4096_S1x1x4096 := rfl

/-- The column result: the clipped root of the running minimum. -/
theorem pay2_apply (v41 : Vec Ideal S1x4096 .f32) (u w : Fin 1) (q : Fin 4096) :
    k0_pay2 (F := Ideal) v41 (ix3 u w q) = clipRoot (v41 (ix2 (0 : Fin 1) q)) := by
  rw [pay2_form, vec_11a_apply, sqrt_apply, maximumf_apply, broadcast_apply, scalar_zero, shapeCast_1a_a_apply]
  rfl

/-- The row result as stored: the vector given two leading unit axes. -/
theorem pay1_apply (v34 : FVec Ideal S1024 .f32) (u w : Fin 1) (p : Fin 1024) :
    k0_pay1 (F := Ideal) v34 (ix3 u w p) = v34 (ix1 p) := by
  unfold k0_pay1
  exact vec_11a_apply _ _ u w p

end Cert.Chamfer.Kern

end
-- ==== Proof.KPieces.lean ====
/-
  What one run of the body leaves in the two outputs' staging buffers and in the carried scratch, case by case, as
  values of the loaded blocks.

  The body stores the block's row result into the first output at every grid point. The scratch holds running column
  minima: at the first block of a batch entry it is first set to +∞ in every column, then (at every block) replaced by
  its minimum with the block's column minima. At the last block of a batch entry the second output receives the clipped
  root of the scratch.
-/
import proofs.«144797_j47493748359773_2_alg».proof.Proof.Gen.KernelIdeal.Frame
import Idealize.ShloMosaic.Lib.Pipeline.Value
import Idealize.ShloMosaic.Lib.Tactic

set_option maxRecDepth 16384

noncomputable section

namespace Cert.Chamfer.Kern

open Idealize.ShloMosaic Idealize.ShloMosaic.TcCoe Idealize.ShloMosaic.Tactic Idealize.SL.Sem
open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- Case A: the first output's buffer is left at the block's row result (one covering store). -/
theorem row_A (c : Dev nD) (i : grid0.Coords) (arg2 : Memref sig .tc .vmem S1x3x1024 .f32) (harg2 : arg2.IsWhole) (arg3 : Memref sig .tc .vmem S1x3x4096 .f32) (harg3 : arg3.IsWhole) (arg4 : Memref sig .tc .vmem S1x1x1024 .f32) (harg4 : arg4.IsWhole) (arg5 : Memref sig .tc .vmem S1x1x4096 .f32) (harg5 : arg5.IsWhole) (arg6 : Memref sig .tc .vmem S1x4096 .f32) (harg6 : arg6.IsWhole) (hc0 : cond0_0 i) (hc1 : ¬cond0_1 i)
    (x0 : Vec F S1x3x1024 .f32) (x1 : Vec F S1x3x4096 .f32) :
    out0_A_2 c i arg2 harg2 arg3 harg3 arg4 harg4 arg5 harg5 arg6 harg6 hc0 hc1 x0 x1 = k0_pay1 (k0_pay6 x0 x1) := by
  unfold out0_A_2
  rw [View.read_writes_eq_canon _ _ _ (cover0_A_2 c i arg2 harg2 arg3 harg3 arg4 harg4 arg5 harg5 arg6 harg6 hc0 hc1 x0 x1)]
  unfold kernelRun0_A
  dsimp only
  sl_unfold_words
  rw [View.canon_unit_zero hz3]
  simp only [View.readAt_eq_ld, harg2.read_unread, harg3.read_unread, harg6.read_unread, View.ld_unit_zero (S := S1x3x1024) hz3, View.ld_unit_zero (S := S1x3x4096) hz3, View.ld_unit_zero (S := S1x4096) hz2]

/-- Case A (first block of a batch entry): the scratch is reset to the starting value, read back, and left at its minimum with the block's column minima. -/
theorem acc_A (c : Dev nD) (i : grid0.Coords) (arg2 : Memref sig .tc .vmem S1x3x1024 .f32) (harg2 : arg2.IsWhole) (arg3 : Memref sig .tc .vmem S1x3x4096 .f32) (harg3 : arg3.IsWhole) (arg4 : Memref sig .tc .vmem S1x1x1024 .f32) (harg4 : arg4.IsWhole) (arg5 : Memref sig .tc .vmem S1x1x4096 .f32) (harg5 : arg5.IsWhole) (arg6 : Memref sig .tc .vmem S1x4096 .f32) (harg6 : arg6.IsWhole) (hc0 : cond0_0 i) (hc1 : ¬cond0_1 i)
    (x0 : Vec F S1x3x1024 .f32) (x1 : Vec F S1x3x4096 .f32) :
    sout0_A_0 c i arg2 harg2 arg3 harg3 arg4 harg4 arg5 harg5 arg6 harg6 hc0 hc1 x0 x1 = k0_pay5 x0 x1 (k0_pay4 (F := F)) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S1x4096) hz2, View.readCov_unit_zero (S := S1x4096) _ hz2]
  simp only [View.readAt_eq_ld, harg2.read_unread, harg3.read_unread, harg6.read_unread, View.ld_unit_zero (S := S1x3x1024) hz3, View.ld_unit_zero (S := S1x3x4096) hz3, View.ld_unit_zero (S := S1x4096) hz2]

/-- Case B: the first output's buffer is left at the block's row result (one covering store). -/
theorem row_B (c : Dev nD) (i : grid0.Coords) (arg2 : Memref sig .tc .vmem S1x3x1024 .f32) (harg2 : arg2.IsWhole) (arg3 : Memref sig .tc .vmem S1x3x4096 .f32) (harg3 : arg3.IsWhole) (arg4 : Memref sig .tc .vmem S1x1x1024 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : ¬cond0_1 i)
    (x0 : Vec F S1x3x1024 .f32) (x1 : Vec F S1x3x4096 .f32) (xs0 : Vec F S1x4096 .f32) :
    out0_B_2 c i arg2 harg2 arg3 harg3 arg4 harg4 arg5 harg5 arg6 harg6 hc0 hc1 x0 x1 xs0 = k0_pay1 (k0_pay6 x0 x1) := by
  unfold out0_B_2
  rw [View.read_writes_eq_canon _ _ _ (cover0_B_2 c i arg2 harg2 arg3 harg3 arg4 harg4 arg5 harg5 arg6 harg6 hc0 hc1 x0 x1 xs0)]
  unfold kernelRun0_B
  dsimp only
  sl_unfold_words
  rw [View.canon_unit_zero hz3]
  simp only [View.readAt_eq_ld, harg2.read_unread, harg3.read_unread, harg6.read_unread, View.ld_unit_zero (S := S1x3x1024) hz3, View.ld_unit_zero (S := S1x3x4096) hz3, View.ld_unit_zero (S := S1x4096) hz2]

/-- Case B (a middle block): the scratch, found at what the block before left, is left at its minimum with the block's column minima. -/
theorem acc_B (c : Dev nD) (i : grid0.Coords) (arg2 : Memref sig .tc .vmem S1x3x1024 .f32) (harg2 : arg2.IsWhole) (arg3 : Memref sig .tc .vmem S1x3x4096 .f32) (harg3 : arg3.IsWhole) (arg4 : Memref sig .tc .vmem S1x1x1024 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : ¬cond0_1 i)
    (x0 : Vec F S1x3x1024 .f32) (x1 : Vec F S1x3x4096 .f32) (xs0 : Vec F S1x4096 .f32) :
    sout0_B_0 c i arg2 harg2 arg3 harg3 arg4 harg4 arg5 harg5 arg6 harg6 hc0 hc1 x0 x1 xs0 = k0_pay5 x0 x1 xs0 := by
  unfold sout0_B_0
  rw [View.read_writes_eq_canon _ _ _ (scover0_B_0 c i arg2 harg2 arg3 harg3 arg4 harg4 arg5 harg5 arg6 harg6 hc0 hc1 x0 x1 xs0)]
  unfold kernelRun0_B
  dsimp only
  sl_unfold_words
  rw [View.canon_unit_zero hz2]
  simp only [View.readAt_eq_ld, harg2.read_unread, harg3.read_unread, harg6.read_unread, View.ld_unit_zero (S := S1x3x1024) hz3, View.ld_unit_zero (S := S1x3x4096) hz3, View.ld_unit_zero (S := S1x4096) hz2]

/-- Case C: the first output's buffer is left at the block's row result (one covering store). -/
theorem row_C (c : Dev nD) (i : grid0.Coords) (arg2 : Memref sig .tc .vmem S1x3x1024 .f32) (harg2 : arg2.IsWhole) (arg3 : Memref sig .tc .vmem S1x3x4096 .f32) (harg3 : arg3.IsWhole) (arg4 : Memref sig .tc .vmem S1x1x1024 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i)
    (x0 : Vec F S1x3x1024 .f32) (x1 : Vec F S1x3x4096 .f32) (xs0 : Vec F S1x4096 .f32) :
    out0_C_2 c i arg2 harg2 arg3 harg3 arg4 harg4 arg5 harg5 arg6 harg6 hc0 hc1 x0 x1 xs0 = k0_pay1 (k0_pay6 x0 x1) := by
  unfold out0_C_2
  rw [View.read_writes_eq_canon _ _ _ (cover0_C_2 c i arg2 harg2 arg3 harg3 arg4 harg4 arg5 harg5 arg6 harg6 hc0 hc1 x0 x1 xs0)]
  unfold kernelRun0_C
  dsimp only
  sl_unfold_words
  rw [View.canon_unit_zero hz3]
  simp only [View.readAt_eq_ld, harg2.read_unread, harg3.read_unread, harg6.read_unread, View.ld_unit_zero (S := S1x3x1024) hz3, View.ld_unit_zero (S := S1x3x4096) hz3, View.ld_unit_zero (S := S1x4096) hz2]

/-- Case C (last block of a batch entry): the scratch is updated as in a middle block. -/
theorem acc_C (c : Dev nD) (i : grid0.Coords) (arg2 : Memref sig .tc .vmem S1x3x1024 .f32) (harg2 : arg2.IsWhole) (arg3 : Memref sig .tc .vmem S1x3x4096 .f32) (harg3 : arg3.IsWhole) (arg4 : Memref sig .tc .vmem S1x1x1024 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i)
    (x0 : Vec F S1x3x1024 .f32) (x1 : Vec F S1x3x4096 .f32) (xs0 : Vec F S1x4096 .f32) :
    sout0_C_0 c i arg2 harg2 arg3 harg3 arg4 harg4 arg5 harg5 arg6 harg6 hc0 hc1 x0 x1 xs0 = k0_pay5 x0 x1 xs0 := by
  unfold sout0_C_0
  rw [View.read_writes_eq_canon _ _ _ (scover0_C_0 c i arg2 harg2 arg3 harg3 arg4 harg4 arg5 harg5 arg6 harg6 hc0 hc1 x0 x1 xs0)]
  unfold kernelRun0_C
  dsimp only
  sl_unfold_words
  rw [View.canon_unit_zero hz2]
  simp only [View.readAt_eq_ld, harg2.read_unread, harg3.read_unread, harg6.read_unread, View.ld_unit_zero (S := S1x3x1024) hz3, View.ld_unit_zero (S := S1x3x4096) hz3, View.ld_unit_zero (S := S1x4096) hz2]

/-- Case C: the second output's buffer is left at the clipped root of the updated scratch (one covering store of a read-back of the scratch). -/
theorem col_C (c : Dev nD) (i : grid0.Coords) (arg2 : Memref sig .tc .vmem S1x3x1024 .f32) (harg2 : arg2.IsWhole) (arg3 : Memref sig .tc .vmem S1x3x4096 .f32) (harg3 : arg3.IsWhole) (arg4 : Memref sig .tc .vmem S1x1x1024 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i)
    (x0 : Vec F S1x3x1024 .f32) (x1 : Vec F S1x3x4096 .f32) (xs0 : Vec F S1x4096 .f32) :
    out0_C_3 c i arg2 harg2 arg3 harg3 arg4 harg4 arg5 harg5 arg6 harg6 hc0 hc1 x0 x1 xs0 = k0_pay2 (k0_pay5 x0 x1 xs0) := by
  unfold out0_C_3
  rw [View.read_writes_eq_canon _ _ _ (cover0_C_3 c i arg2 harg2 arg3 harg3 arg4 harg4 arg5 harg5 arg6 harg6 hc0 hc1 x0 x1 xs0)]
  unfold kernelRun0_C
  dsimp only
  sl_unfold_words
  rw [View.canon_unit_zero hz3, View.readCov_unit_zero (S := S1x4096) _ hz2]
  simp only [View.readAt_eq_ld, harg2.read_unread, harg3.read_unread, harg6.read_unread, View.ld_unit_zero (S := S1x3x1024) hz3, View.ld_unit_zero (S := S1x3x4096) hz3, View.ld_unit_zero (S := S1x4096) hz2]

end Cert.Chamfer.Kern

end
-- ==== Proof.KBlocks.lean ====
/-
  The two input windows' blocks, read at an entry.

  The program first swaps the last two axes of each argument on the host: the array of shape [8, 3, 4096] the
  region reads holds, at (b, d, n), the argument's entry (b, n, d). The region runs over 32 grid points; point
  `t` is the pair (b, nt) = (t / 4, t % 4) of the [8, 4] grid.

    * The first window's block at point `t` is the [1, 3, 1024] block at block index (b, 0, nt): its entry
      (0, d, p) is the swapped array's entry (b, d, 1024 nt + p), that is the first argument's entry
      (b, 1024 nt + p, d).
    * The second window's block at point `t` is the [1, 3, 4096] block at block index (b, 0, 0): its entry
      (0, d, q) is the swapped array's entry (b, d, q), that is the second argument's entry (b, q, d).

  A block's coordinate on an axis is always (block index) × (block size) + 1 × (coordinate inside the block);
  the block indices are decided once over the 32 points.
-/
import proofs.«144797_j47493748359773_2_alg».proof.Proof.Gen.KernelIdeal.Frame
import Idealize.ShloMosaic.Lib.Pipeline.Value
import Idealize.ShloMosaic.Lib.ValueLayout
import Idealize.ShloMosaic.Lib.ValueIdx
import Idealize.ShloMosaic.Lib.StableHlo.Run

set_option maxRecDepth 16384

noncomputable section

namespace Cert.Chamfer.Kern

open Idealize.ShloMosaic Idealize.ShloMosaic.TcCoe Idealize.ShloMosaic.ValueIdx Idealize.SL.Sem Cert.KernelIdeal Cert.KernelIdeal.Gen

variable {F : FTy → Type} [FloatOps F] (m : (ℓ : Loc nD τ sig) → Buf (Elt F) ℓ)

/-- The first window's block index at point `t` is (t / 4, 0, t % 4). -/
theorem blockIndex0 : ∀ t : Fin cfg0.N,
    win0_0.index t 0 = t.val / 4 ∧ win0_0.index t 1 = 0 ∧ win0_0.index t 2 = t.val % 4 :=
  (by decide +kernel : ∀ t : Fin grid0.N,
    win0_0.index t 0 = t.val / 4 ∧ win0_0.index t 1 = 0 ∧ win0_0.index t 2 = t.val % 4)

/-- The second window's block index at point `t` is (t / 4, 0, 0). -/
theorem blockIndex1 : ∀ t : Fin cfg0.N,
    win0_1.index t 0 = t.val / 4 ∧ win0_1.index t 1 = 0 ∧ win0_1.index t 2 = 0 :=
  (by decide +kernel : ∀ t : Fin grid0.N,
    win0_1.index t 0 = t.val / 4 ∧ win0_1.index t 1 = 0 ∧ win0_1.index t 2 = 0)

/-- When the region is entered, the first window's array is the first argument with its last two axes swapped. -/
theorem V_main_v0 (c : Dev nD) :
    (V m c main_v0 : S8x3x4096.Idx → Elt F .f32)
      = transpose S8x3x4096 [0, 2, 1] (m ((c : Thread nD τ).loc main_arg0)) Gen.transposes_S8x4096x3_S8x3x4096_0_2_1 := by
  show StableHlo.after hostOps0 (fun b => m (c, b)) (Proc.devRef .tc main_v0) = _
  after_results

/-- When the region is entered, the second window's array is the second argument with its last two axes swapped. -/
theorem V_main_v1 (c : Dev nD) :
    (V m c main_v1 : S8x3x4096.Idx → Elt F .f32)
      = transpose S8x3x4096 [0, 2, 1] (m ((c : Thread nD τ).loc main_arg1)) Gen.transposes_S8x4096x3_S8x3x4096_0_2_1 := by
  show StableHlo.after hostOps0 (fun b => m (c, b)) (Proc.devRef .tc main_v1) = _
  after_results

/-- Entry (0, d, p) of the first window's block at point `t` is the first argument's entry
    (t / 4, 1024 (t % 4) + p, d). -/
theorem iblk0_apply (c : Dev nD) (t : Fin cfg0.N) (d : Fin 3) (p : Fin 1024) :
    (iblk m c 0 t : Vec F S1x3x1024 .f32) (ix3 (0 : Fin 1) d p)
      = m ((c : Thread nD τ).loc main_arg0)
          (ix3 (⟨t.val / 4, by have := t.isLt; have hN : cfg0.N = 32 := N_0; omega⟩ : Fin 8)
            (⟨1024 * (t.val % 4) + p.val, by have := p.isLt; omega⟩ : Fin 4096) d) := by
  have hi := blockIndex0 t
  unfold iblk
  rw [View.read_apply]
  show V m c main_v0 _ = _
  rw [V_main_v0]
  refine Eq.trans (congrArg _ ?_) (transpose_ix3_021_apply (m ((c : Thread nD τ).loc main_arg0)) _ _ d _)
  funext a
  apply Fin.ext
  match a with
  | ⟨0, _⟩ => show win0_0.index t 0 * 1 + 1 * ((0 : Fin 1) : Nat) = t.val / 4; rw [hi.1]; simp
  | ⟨1, _⟩ => show win0_0.index t 1 * 3 + 1 * d.val = d.val; rw [hi.2.1]; omega
  | ⟨2, _⟩ => show win0_0.index t 2 * 1024 + 1 * p.val = 1024 * (t.val % 4) + p.val; rw [hi.2.2]; omega

/-- Entry (0, d, q) of the second window's block at point `t` is the second argument's entry (t / 4, q, d). -/
theorem iblk1_apply (c : Dev nD) (t : Fin cfg0.N) (d : Fin 3) (q : Fin 4096) :
    (iblk m c 1 t : Vec F S1x3x4096 .f32) (ix3 (0 : Fin 1) d q)
      = m ((c : Thread nD τ).loc main_arg1)
          (ix3 (⟨t.val / 4, by have := t.isLt; have hN : cfg0.N = 32 := N_0; omega⟩ : Fin 8) q d) := by
  have hi := blockIndex1 t
  unfold iblk
  rw [View.read_apply]
  show V m c main_v1 _ = _
  rw [V_main_v1]
  refine Eq.trans (congrArg _ ?_) (transpose_ix3_021_apply (m ((c : Thread nD τ).loc main_arg1)) _ _ d _)
  funext a
  apply Fin.ext
  match a with
  | ⟨0, _⟩ => show win0_1.index t 0 * 1 + 1 * ((0 : Fin 1) : Nat) = t.val / 4; rw [hi.1]; simp
  | ⟨1, _⟩ => show win0_1.index t 1 * 3 + 1 * d.val = d.val; rw [hi.2.1]; omega
  | ⟨2, _⟩ => show win0_1.index t 2 * 4096 + 1 * q.val = q.val; rw [hi.2.2]; omega

end Cert.Chamfer.Kern

end
-- ==== Proof.KOuts.lean ====
/-
  What the grid points leave, as values of the two point sets.

  Grid point `t` is block `nt = t % 4` of batch entry `b = t / 4`: its block of `x` is the points
  1024·nt … 1024·nt + 1023 of `x[b]`, its block of `y` all of `y[b]`. At every point the first output receives, for
  each of the block's 1024 points, the clipped root of its least squared distance to `y[b]`. The scratch runs
  through the four blocks of a batch entry: after block `nt` it holds, in column `q`, the minimum — started from
  top — of the blocks' least squared distances to `y[b, q]` so far; after the fourth block that is the least
  squared distance from all of `x[b]`, whose clipped root the second output receives.
-/
import proofs.«144797_j47493748359773_2_alg».proof.Proof.KPay
import proofs.«144797_j47493748359773_2_alg».proof.Proof.KPieces
import proofs.«144797_j47493748359773_2_alg».proof.Proof.KBlocks

set_option maxRecDepth 16384

noncomputable section

namespace Cert.Chamfer.Kern

open Idealize.ShloMosaic Idealize.ShloMosaic.TcCoe Idealize.ShloMosaic.ValueIdx Idealize.SL.Sem
open Cert.KernelIdeal Cert.KernelIdeal.Gen

/-! ## One block -/

/-- The position in the whole set of point `p` of block `nt`. -/
abbrev pos (nt : Fin 4) (p : Fin 1024) : Fin 4096 :=
  ⟨1024 * nt.val + p.val, by have := nt.isLt; have := p.isLt; omega⟩

/-- The least squared distance from block `nt` of `x[b]` to the point `y[b, q]`, started from top. -/
def tileMin (X Y : SP.Idx → EReal) (b : Fin 8) (nt : Fin 4) (q : Fin 4096) : EReal :=
  (Finset.univ : Finset (Fin 1024)).fold min ⊤ fun p => sqK X Y b (pos nt p) q

/-- The block's contraction at (p, q) is the squared distance of the two points, in the length-five arrangement. -/
theorem sq_block (X Y : SP.Idx → EReal) (b : Fin 8) (nt : Fin 4)
    (x0 : Vec Ideal S1x3x1024 .f32) (x1 : Vec Ideal S1x3x4096 .f32)
    (h0 : ∀ (d : Fin 3) (p : Fin 1024), x0 (ix3 (0 : Fin 1) d p) = X (ix3 b (pos nt p) d))
    (h1 : ∀ (d : Fin 3) (q : Fin 4096), x1 (ix3 (0 : Fin 1) d q) = Y (ix3 b q d))
    (p : Fin 1024) (q : Fin 4096) :
    k0_pay3 (F := Ideal) x0 x1 (ix2 p q) = sqK X Y b (pos nt p) q := by
  rw [pay3_apply]
  unfold sqK
  refine Finset.sum_congr rfl fun k _ => ?_
  have eL : facL (shapeCast S3x1024 x0 shapeCasts_S1x3x1024_S3x1024) p k = augL X b (pos nt p) k := by
    match k with
    | ⟨0, _⟩ =>
      show negTwoW * shapeCast S3x1024 x0 shapeCasts_S1x3x1024_S3x1024 (ix2 (0 : Fin 3) p) = negTwoW * X (ix3 b (pos nt p) (0 : Fin 3))
      rw [shapeCast_1ab_ab_apply, h0]
    | ⟨1, _⟩ =>
      show negTwoW * shapeCast S3x1024 x0 shapeCasts_S1x3x1024_S3x1024 (ix2 (1 : Fin 3) p) = negTwoW * X (ix3 b (pos nt p) (1 : Fin 3))
      rw [shapeCast_1ab_ab_apply, h0]
    | ⟨2, _⟩ =>
      show negTwoW * shapeCast S3x1024 x0 shapeCasts_S1x3x1024_S3x1024 (ix2 (2 : Fin 3) p) = negTwoW * X (ix3 b (pos nt p) (2 : Fin 3))
      rw [shapeCast_1ab_ab_apply, h0]
    | ⟨3, _⟩ => rfl
    | ⟨4, _⟩ =>
      show (∑ d : Fin 3, shapeCast S3x1024 x0 shapeCasts_S1x3x1024_S3x1024 (ix2 d p)
          * shapeCast S3x1024 x0 shapeCasts_S1x3x1024_S3x1024 (ix2 d p)) = normSq X b (pos nt p)
      unfold normSq
      refine Finset.sum_congr rfl fun d _ => ?_
      rw [shapeCast_1ab_ab_apply, h0]
  have eR : facR (shapeCast S3x4096 x1 shapeCasts_S1x3x4096_S3x4096) q k = augR Y b q k := by
    match k with
    | ⟨0, _⟩ =>
      show shapeCast S3x4096 x1 shapeCasts_S1x3x4096_S3x4096 (ix2 (0 : Fin 3) q) = Y (ix3 b q (0 : Fin 3))
      rw [shapeCast_1ab_ab_apply, h1]
    | ⟨1, _⟩ =>
      show shapeCast S3x4096 x1 shapeCasts_S1x3x4096_S3x4096 (ix2 (1 : Fin 3) q) = Y (ix3 b q (1 : Fin 3))
      rw [shapeCast_1ab_ab_apply, h1]
    | ⟨2, _⟩ =>
      show shapeCast S3x4096 x1 shapeCasts_S1x3x4096_S3x4096 (ix2 (2 : Fin 3) q) = Y (ix3 b q (2 : Fin 3))
      rw [shapeCast_1ab_ab_apply, h1]
    | ⟨3, _⟩ =>
      show (∑ d : Fin 3, shapeCast S3x4096 x1 shapeCasts_S1x3x4096_S3x4096 (ix2 d q)
          * shapeCast S3x4096 x1 shapeCasts_S1x3x4096_S3x4096 (ix2 d q)) = normSq Y b q
      unfold normSq
      refine Finset.sum_congr rfl fun d _ => ?_
      rw [shapeCast_1ab_ab_apply, h1]
    | ⟨4, _⟩ => rfl
  rw [eL, eR]

/-- One update of the running column minima: the previous value against the block's least squared distance. -/
theorem acc_step (X Y : SP.Idx → EReal) (b : Fin 8) (nt : Fin 4)
    (x0 : Vec Ideal S1x3x1024 .f32) (x1 : Vec Ideal S1x3x4096 .f32)
    (h0 : ∀ (d : Fin 3) (p : Fin 1024), x0 (ix3 (0 : Fin 1) d p) = X (ix3 b (pos nt p) d))
    (h1 : ∀ (d : Fin 3) (q : Fin 4096), x1 (ix3 (0 : Fin 1) d q) = Y (ix3 b q d))
    (prev : Vec Ideal S1x4096 .f32) (q : Fin 4096) :
    k0_pay5 (F := Ideal) x0 x1 prev (ix2 (0 : Fin 1) q) = min (prev (ix2 (0 : Fin 1) q)) (tileMin X Y b nt q) := by
  rw [pay5_apply]
  unfold tileMin
  exact congrArg (min (prev (ix2 (0 : Fin 1) q))) (Finset.fold_congr fun p _ => sq_block X Y b nt x0 x1 h0 h1 p q)

/-- The block's row result at point p: the nearest-neighbour distance of that point of `x[b]` within `y[b]`. -/
theorem row_val (X Y : SP.Idx → EReal) (b : Fin 8) (nt : Fin 4)
    (x0 : Vec Ideal S1x3x1024 .f32) (x1 : Vec Ideal S1x3x4096 .f32)
    (h0 : ∀ (d : Fin 3) (p : Fin 1024), x0 (ix3 (0 : Fin 1) d p) = X (ix3 b (pos nt p) d))
    (h1 : ∀ (d : Fin 3) (q : Fin 4096), x1 (ix3 (0 : Fin 1) d q) = Y (ix3 b q d))
    (p : Fin 1024) :
    k0_pay1 (F := Ideal) (k0_pay6 (F := Ideal) x0 x1) (ix3 (0 : Fin 1) (0 : Fin 1) p) = rowK X Y b (pos nt p) := by
  rw [pay1_apply, pay6_apply]
  unfold rowK
  exact congrArg clipRoot (Finset.fold_congr fun q _ => sq_block X Y b nt x0 x1 h0 h1 p q)

/-! ## The running minima over the four blocks of a batch entry -/

/-- The running column minimum after block `r`: top against block 0, then against each further block in turn. -/
def accAt (X Y : SP.Idx → EReal) (b : Fin 8) (q : Fin 4096) : (r : ℕ) → r < 4 → EReal
  | 0, h => min ⊤ (tileMin X Y b ⟨0, h⟩ q)
  | r + 1, h => min (accAt X Y b q r (Nat.lt_of_succ_lt h)) (tileMin X Y b ⟨r + 1, h⟩ q)

theorem accAt_first (X Y : SP.Idx → EReal) (b : Fin 8) (q : Fin 4096) (r : ℕ) (h : r < 4) (hr : r = 0) :
    accAt X Y b q r h = min ⊤ (tileMin X Y b ⟨r, h⟩ q) := by
  subst hr; rfl

theorem accAt_next (X Y : SP.Idx → EReal) (b : Fin 8) (q : Fin 4096) (r : ℕ) (h : r < 4) (hr : r ≠ 0) :
    accAt X Y b q r h = min (accAt X Y b q (r - 1) (by omega)) (tileMin X Y b ⟨r, h⟩ q) := by
  cases r with
  | zero => exact absurd rfl hr
  | succ r => rfl

theorem accAt_congr (X Y : SP.Idx → EReal) (b b' : Fin 8) (q : Fin 4096) (r r' : ℕ) (h : r < 4) (h' : r' < 4)
    (hb : b = b') (hr : r = r') : accAt X Y b q r h = accAt X Y b' q r' h' := by
  subst hb; subst hr; rfl

/-- After the fourth block the running minimum is the least squared distance from all 4096 points of `x[b]`. -/
theorem accAt_last (X Y : SP.Idx → EReal) (b : Fin 8) (q : Fin 4096) (r : ℕ) (h : r < 4) (hr : r = 3) :
    accAt X Y b q r h = (Finset.univ : Finset (Fin 4096)).fold min ⊤ fun n => sqK X Y b n q := by
  subst hr
  show min (min (min (min ⊤ (tileMin X Y b ⟨0, _⟩ q)) (tileMin X Y b ⟨1, _⟩ q)) (tileMin X Y b ⟨2, _⟩ q))
      (tileMin X Y b ⟨3, _⟩ q) = _
  unfold tileMin
  exact Cert.Nearest.fold_min_four (fun n => sqK X Y b n q) _ _ _ _
    (fun l => congrArg (fun n => sqK X Y b n q) (Fin.ext (by show 1024 * 0 + l.val = l.val; omega)))
    (fun l => congrArg (fun n => sqK X Y b n q) (Fin.ext (by show 1024 * 1 + l.val = 1024 + l.val; omega)))
    (fun l => congrArg (fun n => sqK X Y b n q) (Fin.ext (by show 1024 * 2 + l.val = 2048 + l.val; omega)))
    (fun l => congrArg (fun n => sqK X Y b n q) (Fin.ext (by show 1024 * 3 + l.val = 3072 + l.val; omega)))

/-! ## The grid points -/

variable (m : (ℓ : Loc nD τ sig) → Buf (Elt Ideal) ℓ)

/-- The batch entry and the block of a grid point. -/
abbrev bOf (t : Fin cfg0.N) : Fin 8 := ⟨t.val / 4, by have := t.isLt; have hN : cfg0.N = 32 := N_0; omega⟩
abbrev ntOf (t : Fin cfg0.N) : Fin 4 := ⟨t.val % 4, Nat.mod_lt _ (by decide)⟩

/-- The first output at any point: the block's row result. -/
theorem row_eq (c : Dev nD) (t : Fin cfg0.N) :
    (outsAt0 m c t.val t.isLt).1 = k0_pay1 (F := Ideal) (k0_pay6 (F := Ideal) (iblk m c 0 t) (iblk m c 1 t)) := by
  by_cases h0 : t.val % 4 = 0
  · have h1 : ¬t.val % 4 = 3 := by omega
    rw [outsAt0_A m c t h0 h1]
    dsimp only
    exact row_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)
  · by_cases h1 : t.val % 4 = 3
    · rw [outsAt0_C m c t h0 h1]
      dsimp only
      exact row_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t)
        (outsAt0 m c (t.val - 1) (Nat.lt_of_le_of_lt (Nat.sub_le _ _) t.isLt)).2.2
    · rw [outsAt0_B m c t h0 h1]
      dsimp only
      exact row_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t)
        (outsAt0 m c (t.val - 1) (Nat.lt_of_le_of_lt (Nat.sub_le _ _) t.isLt)).2.2

/-- The scratch after the first block of a batch entry. -/
theorem scr_first (c : Dev nD) (t : Fin cfg0.N) (h0 : t.val % 4 = 0) :
    (outsAt0 m c t.val t.isLt).2.2
      = k0_pay5 (F := Ideal) (iblk m c 0 t) (iblk m c 1 t) (k0_pay4 (F := Ideal)) := by
  have h1 : ¬t.val % 4 = 3 := by omega
  rw [outsAt0_A m c t h0 h1]
  dsimp only
  exact acc_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)

/-- The scratch after any later block: one update of what the block before left. -/
theorem scr_later (c : Dev nD) (t : Fin cfg0.N) (h0 : ¬t.val % 4 = 0) :
    (outsAt0 m c t.val t.isLt).2.2
      = k0_pay5 (F := Ideal) (iblk m c 0 t) (iblk m c 1 t)
          (outsAt0 m c (t.val - 1) (Nat.lt_of_le_of_lt (Nat.sub_le _ _) t.isLt)).2.2 := by
  by_cases h1 : t.val % 4 = 3
  · rw [outsAt0_C m c t h0 h1]
    dsimp only
    exact acc_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2.2
  · rw [outsAt0_B m c t h0 h1]
    dsimp only
    exact acc_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2.2

/-- The second output at the last block of a batch entry: the clipped root of the scratch as that block leaves it. -/
theorem col_eq (c : Dev nD) (t : Fin cfg0.N) (h3 : t.val % 4 = 3) :
    (outsAt0 m c t.val t.isLt).2.1 = k0_pay2 (F := Ideal) (outsAt0 m c t.val t.isLt).2.2 := by
  have h0 : ¬t.val % 4 = 0 := by omega
  rw [outsAt0_C m c t h0 h3]
  dsimp only
  exact (col_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (iblk m c 0 t) (iblk m c 1 t)
      (outsAt0 m c (t.val - 1) (Nat.lt_of_le_of_lt (Nat.sub_le _ _) t.isLt)).2.2).trans
    (congrArg (k0_pay2 (F := Ideal))
      (acc_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (iblk m c 0 t) (iblk m c 1 t)
        (outsAt0 m c (t.val - 1) (Nat.lt_of_le_of_lt (Nat.sub_le _ _) t.isLt)).2.2).symm)

/-- THE INVARIANT: after grid point `n` the scratch holds, in column q, the running minimum after block n % 4 of
    batch entry n / 4. By induction on the point. -/
theorem scr_inv (c : Dev nD) : ∀ (n : ℕ) (h : n < cfg0.N) (q : Fin 4096),
    (outsAt0 m c n h).2.2 (ix2 (0 : Fin 1) q)
      = accAt (m ((c : Thread nD τ).loc main_arg0)) (m ((c : Thread nD τ).loc main_arg1)) (bOf ⟨n, h⟩) q (n % 4)
          (Nat.mod_lt _ (by decide))
  | n, h, q => by
    by_cases h0 : n % 4 = 0
    · have e : (outsAt0 m c n h).2.2 = _ := scr_first m c ⟨n, h⟩ h0
      rw [e, accAt_first _ _ _ _ _ _ h0]
      refine (acc_step (m ((c : Thread nD τ).loc main_arg0)) (m ((c : Thread nD τ).loc main_arg1)) (bOf ⟨n, h⟩) (ntOf ⟨n, h⟩)
        (iblk m c 0 ⟨n, h⟩) (iblk m c 1 ⟨n, h⟩) (fun d p => iblk0_apply m c ⟨n, h⟩ d p) (fun d q => iblk1_apply m c ⟨n, h⟩ d q)
        (k0_pay4 (F := Ideal)) q).trans ?_
      rw [pay4_apply]
    · have e : (outsAt0 m c n h).2.2 = _ := scr_later m c ⟨n, h⟩ h0
      rw [e, accAt_next _ _ _ _ _ _ h0]
      refine (acc_step (m ((c : Thread nD τ).loc main_arg0)) (m ((c : Thread nD τ).loc main_arg1)) (bOf ⟨n, h⟩) (ntOf ⟨n, h⟩)
        (iblk m c 0 ⟨n, h⟩) (iblk m c 1 ⟨n, h⟩) (fun d p => iblk0_apply m c ⟨n, h⟩ d p) (fun d q => iblk1_apply m c ⟨n, h⟩ d q)
        _ q).trans ?_
      have hn1 : n - 1 < cfg0.N := Nat.lt_of_le_of_lt (Nat.sub_le _ _) h
      have ih := scr_inv c (n - 1) hn1 q
      refine congrArg (fun v => min v _) (ih.trans ?_)
      exact accAt_congr _ _ _ _ _ _ _ _ _ (Fin.ext (by show (n - 1) / 4 = n / 4; omega)) (by omega)
  termination_by n => n
  decreasing_by omega

/-- FIRST PER-POINT FACT: entry p of the first output at point t is the nearest-neighbour distance of point
    1024 (t % 4) + p of `x[t / 4]` within `y[t / 4]`. -/
theorem row_at (c : Dev nD) (t : Fin cfg0.N) (p : Fin 1024) (hb : t.val / 4 < 8) (hn : 1024 * (t.val % 4) + p.val < 4096) :
    (outsAt0 m c t.val t.isLt).1 (ix3 (0 : Fin 1) (0 : Fin 1) p)
      = rowK (m ((c : Thread nD τ).loc main_arg0)) (m ((c : Thread nD τ).loc main_arg1)) ⟨t.val / 4, hb⟩
          ⟨1024 * (t.val % 4) + p.val, hn⟩ := by
  rw [row_eq m c t]
  exact row_val (m ((c : Thread nD τ).loc main_arg0)) (m ((c : Thread nD τ).loc main_arg1)) (bOf t) (ntOf t)
    (iblk m c 0 t) (iblk m c 1 t) (fun d p => iblk0_apply m c t d p) (fun d q => iblk1_apply m c t d q) p

/-- SECOND PER-POINT FACT: at the last block of a batch entry, entry q of the second output is the nearest-neighbour
    distance of point q of `y[t / 4]` within `x[t / 4]`. -/
theorem col_at (c : Dev nD) (t : Fin cfg0.N) (h3 : t.val % 4 = 3) (q : Fin 4096) (hb : t.val / 4 < 8) :
    (outsAt0 m c t.val t.isLt).2.1 (ix3 (0 : Fin 1) (0 : Fin 1) q)
      = colK (m ((c : Thread nD τ).loc main_arg0)) (m ((c : Thread nD τ).loc main_arg1)) ⟨t.val / 4, hb⟩ q := by
  rw [col_eq m c t h3, pay2_apply, scr_inv m c t.val t.isLt q, accAt_last _ _ _ _ _ _ h3]
  rfl

end Cert.Chamfer.Kern

end
-- ==== Proof.KFinal.lean ====
/-
  The kernel program's run, read as values.

  The region visits the 32 points t = 4 b + s of an 8 × 4 grid (b the batch entry, s the quarter of the 4096
  points of x being treated). At every point it writes back a block of 1024 entries of the first result, an
  8 × 1 × 4096 array: block (b, 0, s). At the last quarter of each batch entry (t mod 4 = 3) it writes back a
  block of 4096 entries of the second result: block (b, 0, 0), the whole of batch entry b.

  Given what each point leaves in the two blocks — for the first, the nearest-neighbour distance of point
  1024 s + p of x within y at position p; for the second, the nearest-neighbour distance of point q of y
  within x at position q (the two hypotheses `hrow` and `hcol` below) — every entry of each result lies in
  exactly the block of one writing point, so after the region the first result is the array
  (b, 0, n) ↦ rowK x y b n and the second (b, 0, j) ↦ colK x y b j.

  The lines after the region forget the unit middle axis of both results, which keeps row-major positions and
  so gives the families RowK and ColK, and then take the two means and the final quotient: the shared tail.
  The two argument arrays are written by no line and by no point, so they end as they started.
-/
import proofs.«144797_j47493748359773_2_alg».proof.Proof.Gen.KernelIdeal.Frame
import proofs.«144797_j47493748359773_2_alg».proof.Proof.Spec
import Idealize.ShloMosaic.Lib.Pipeline.Value
import Idealize.ShloMosaic.Lib.ValueLayout
import Idealize.ShloMosaic.Lib.ValueIdx
import Idealize.ShloMosaic.Lib.StableHlo.Run

noncomputable section

namespace Cert.Chamfer.Kern

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ) (ρ : Dev nD → PrngReg)

/-- The first set of points, as core `c` is launched with it. -/
abbrev X (c : Dev nD) : SP.Idx → EReal := m ((c : Thread nD τ).loc main_arg0)
/-- The second set of points. -/
abbrev Y (c : Dev nD) : SP.Idx → EReal := m ((c : Thread nD τ).loc main_arg1)

/-- The first result as one array: entry (b, 0, n) is the nearest-neighbour distance of point n of x within y. -/
def rowArr (c : Dev nD) : S8x1x4096.Idx → EReal := fun i => Cert.Chamfer.rowK (X m c) (Y m c) (i 0) (i 2)
/-- The second result as one array: entry (b, 0, j) is the nearest-neighbour distance of point j of y within x. -/
def colArr (c : Dev nD) : S8x1x4096.Idx → EReal := fun i => Cert.Chamfer.colK (X m c) (Y m c) (i 0) (i 2)

/-! ## Which block each point writes -/

/-- Point t = 4 b + s writes block (b, 0, s) of the first result. -/
theorem idx2 : ∀ t : Fin cfg0.N, win0_2.index t 0 = t.val / 4 ∧ win0_2.index t 1 = 0 ∧ win0_2.index t 2 = t.val % 4 :=
  (by decide +kernel : ∀ t : Fin grid0.N, win0_2.index t 0 = t.val / 4 ∧ win0_2.index t 1 = 0 ∧ win0_2.index t 2 = t.val % 4)
/-- Point t = 4 b + s holds block (b, 0, 0) of the second result. -/
theorem idx3 : ∀ t : Fin cfg0.N, win0_3.index t 0 = t.val / 4 ∧ win0_3.index t 1 = 0 ∧ win0_3.index t 2 = 0 :=
  (by decide +kernel : ∀ t : Fin grid0.N, win0_3.index t 0 = t.val / 4 ∧ win0_3.index t 1 = 0 ∧ win0_3.index t 2 = 0)

section

variable
  (hrow : ∀ (c : Dev nD) (t : Fin cfg0.N) (p : Fin 1024) (hb : t.val / 4 < 8) (hn : 1024 * (t.val % 4) + p.val < 4096),
      (outsAt0 m c t.val t.isLt).1 (ix3 (0 : Fin 1) (0 : Fin 1) p) = Cert.Chamfer.rowK (X m c) (Y m c) ⟨t.val / 4, hb⟩ ⟨1024 * (t.val % 4) + p.val, hn⟩)
  (hcol : ∀ (c : Dev nD) (t : Fin cfg0.N) (h3 : t.val % 4 = 3) (q : Fin 4096) (hb : t.val / 4 < 8),
      (outsAt0 m c t.val t.isLt).2.1 (ix3 (0 : Fin 1) (0 : Fin 1) q) = Cert.Chamfer.colK (X m c) (Y m c) ⟨t.val / 4, hb⟩ q)

/-! ## The first result -/

include hrow in
/-- What point t writes back of the first result is its block of `rowArr`: position p of the block is entry
    (t / 4, 0, 1024 (t mod 4) + p) of the array. -/
theorem flushed2_eq (c : Dev nD) (t : Fin cfg0.N) :
    (dats m 0 c).flushed 2 t = ((cfg0.win 2).blk t).view.read (Elt Ideal) (rowArr m c) := by
  show (cfg0.win 2).cut (grid0.coords t) ((dats m 0 c).after 2 t) = _
  rw [after0_2]
  funext j
  obtain ⟨a, b, p, rfl⟩ : ∃ (a : Fin 1) (b : Fin 1) (p : Fin 1024), j = ix3 a b p := ⟨j 0, j 1, j 2, eq_ix3 j⟩
  obtain rfl : a = 0 := Subsingleton.elim _ _
  obtain rfl : b = 0 := Subsingleton.elim _ _
  have hN : t.val < 32 := lt_of_lt_of_eq t.isLt (show cfg0.N = 32 from N_0)
  have hb : t.val / 4 < 8 := by omega
  have hn : 1024 * (t.val % 4) + p.val < 4096 := by have := p.isLt; omega
  obtain ⟨e0, e1, e2⟩ := idx2 t
  show (outsAt0 m c t.val t.isLt).1 (ix3 0 0 p) = rowArr m c (((cfg0.win 2).blk t).view.emb (ix3 (0 : Fin 1) (0 : Fin 1) p))
  rw [hrow c t p hb hn]
  unfold rowArr
  congr 1
  · apply Fin.ext; show t.val / 4 = win0_2.index t 0 * 1 + 1 * 0; omega
  · apply Fin.ext; show 1024 * (t.val % 4) + p.val = win0_2.index t 2 * 1024 + 1 * p.val; omega

/-- An entry of the first result lies in point t's block iff each coordinate lies in the block's range on its axis. -/
theorem mem_blk2 (t : Fin cfg0.N) (i : S8x1x4096.Idx) :
    i ∈ ((cfg0.win 2).blk t).view.set ↔ ∀ a : Fin 3, win0_2.index t a * S1x1x1024.size a ≤ (i a).val ∧ (i a).val < win0_2.index t a * S1x1x1024.size a + S1x1x1024.size a := by
  show i ∈ ((View.whole main_v2_0).slice (win0_2.rect t)).set ↔ _
  rw [View.set_slice_whole, Rect.mem_set_unit]
  exact Iff.rfl

include hrow in
/-- After the region the first result is `rowArr`: entry (b, 0, n) lies in the block of point 4 b + n / 1024. -/
theorem final2 (c : Dev nD) : (dats m 0 c).arrAt 2 cfg0.N = rowArr m c :=
  (dats m 0 c).arrAt_eq_of_cover 2 (rowArr m c) (fun t _ => flushed2_eq m hrow c t) fun i => by
    have hi0 : (i 0).val < 8 := (i 0).isLt
    have hi1 : (i 1).val < 1 := (i 1).isLt
    have hi2 : (i 2).val < 4096 := (i 2).isLt
    have hN : cfg0.N = 32 := N_0
    obtain ⟨t, tv⟩ : ∃ t : Fin cfg0.N, t.val = 4 * (i 0).val + (i 2).val / 1024 :=
      ⟨⟨_, lt_of_lt_of_eq (by omega : 4 * (i 0).val + (i 2).val / 1024 < 32) hN.symm⟩, rfl⟩
    obtain ⟨e0, e1, e2⟩ := idx2 t
    refine ⟨t, flush0_2 t, ?_⟩
    rw [mem_blk2]
    intro a
    match a with
    | ⟨0, _⟩ => show win0_2.index t 0 * 1 ≤ (i 0).val ∧ (i 0).val < win0_2.index t 0 * 1 + 1; omega
    | ⟨1, _⟩ => show win0_2.index t 1 * 1 ≤ (i 1).val ∧ (i 1).val < win0_2.index t 1 * 1 + 1; omega
    | ⟨2, _⟩ => show win0_2.index t 2 * 1024 ≤ (i 2).val ∧ (i 2).val < win0_2.index t 2 * 1024 + 1024; omega

/-! ## The second result -/

include hcol in
/-- What a point t with t mod 4 = 3 writes back of the second result is its block of `colArr`: position q of the
    block is entry (t / 4, 0, q) of the array. -/
theorem flushed3_eq (c : Dev nD) (t : Fin cfg0.N) (hf : (cfg0.win 3).flush t = true) :
    (dats m 0 c).flushed 3 t = ((cfg0.win 3).blk t).view.read (Elt Ideal) (colArr m c) := by
  have h3 : t.val % 4 = 3 := (flush0_3 t).mp hf
  show (cfg0.win 3).cut (grid0.coords t) ((dats m 0 c).after 3 t) = _
  rw [after0_3]
  funext j
  obtain ⟨a, b, q, rfl⟩ : ∃ (a : Fin 1) (b : Fin 1) (q : Fin 4096), j = ix3 a b q := ⟨j 0, j 1, j 2, eq_ix3 j⟩
  obtain rfl : a = 0 := Subsingleton.elim _ _
  obtain rfl : b = 0 := Subsingleton.elim _ _
  have hN : t.val < 32 := lt_of_lt_of_eq t.isLt (show cfg0.N = 32 from N_0)
  have hb : t.val / 4 < 8 := by omega
  obtain ⟨e0, e1, e2⟩ := idx3 t
  show (outsAt0 m c t.val t.isLt).2.1 (ix3 0 0 q) = colArr m c (((cfg0.win 3).blk t).view.emb (ix3 (0 : Fin 1) (0 : Fin 1) q))
  rw [hcol c t h3 q hb]
  unfold colArr
  congr 1
  · apply Fin.ext; show t.val / 4 = win0_3.index t 0 * 1 + 1 * 0; omega
  · apply Fin.ext; show q.val = win0_3.index t 2 * 4096 + 1 * q.val; omega

/-- An entry of the second result lies in point t's block iff each coordinate lies in the block's range on its axis. -/
theorem mem_blk3 (t : Fin cfg0.N) (i : S8x1x4096.Idx) :
    i ∈ ((cfg0.win 3).blk t).view.set ↔ ∀ a : Fin 3, win0_3.index t a * S1x1x4096.size a ≤ (i a).val ∧ (i a).val < win0_3.index t a * S1x1x4096.size a + S1x1x4096.size a := by
  show i ∈ ((View.whole main_v2_1).slice (win0_3.rect t)).set ↔ _
  rw [View.set_slice_whole, Rect.mem_set_unit]
  exact Iff.rfl

include hcol in
/-- After the region the second result is `colArr`: entry (b, 0, j) lies in the block of point 4 b + 3, the one
    point of batch entry b that writes this result back. -/
theorem final3 (c : Dev nD) : (dats m 0 c).arrAt 3 cfg0.N = colArr m c :=
  (dats m 0 c).arrAt_eq_of_cover 3 (colArr m c) (fun t hf => flushed3_eq m hcol c t hf) fun i => by
    have hi0 : (i 0).val < 8 := (i 0).isLt
    have hi1 : (i 1).val < 1 := (i 1).isLt
    have hi2 : (i 2).val < 4096 := (i 2).isLt
    have hN : cfg0.N = 32 := N_0
    obtain ⟨t, tv⟩ : ∃ t : Fin cfg0.N, t.val = 4 * (i 0).val + 3 :=
      ⟨⟨_, lt_of_lt_of_eq (by omega : 4 * (i 0).val + 3 < 32) hN.symm⟩, rfl⟩
    obtain ⟨e0, e1, e2⟩ := idx3 t
    refine ⟨t, (flush0_3 t).mpr (by omega), ?_⟩
    rw [mem_blk3]
    intro a
    match a with
    | ⟨0, _⟩ => show win0_3.index t 0 * 1 ≤ (i 0).val ∧ (i 0).val < win0_3.index t 0 * 1 + 1; omega
    | ⟨1, _⟩ => show win0_3.index t 1 * 1 ≤ (i 1).val ∧ (i 1).val < win0_3.index t 1 * 1 + 1; omega
    | ⟨2, _⟩ => show win0_3.index t 2 * 4096 ≤ (i 2).val ∧ (i 2).val < win0_3.index t 2 * 4096 + 4096; omega

/-! ## The lines after the region -/

/-- Forgetting the unit middle axis of `rowArr` gives the family RowK: entry (b, n) of the 8 × 4096 array sits at
    the row-major position of entry (b, 0, n) of the 8 × 1 × 4096 array. -/
theorem reshape_row (c : Dev nD) (h : S8x1x4096.ShapeCasts S8x4096) :
    shapeCast S8x4096 (rowArr m c) h = Cert.Chamfer.RowK (X m c) (Y m c) := by
  funext i
  obtain ⟨b, n, rfl⟩ : ∃ (b : Fin 8) (n : Fin 4096), i = ix2 b n := ⟨i 0, i 1, eq_ix2 i⟩
  rw [shapeCast_apply (rowArr m c) h (ix2 b n) (ix3 b (0 : Fin 1) n) (by
    rw [Shape.rowMajor_val_three, Shape.rowMajor_val_two]
    show (b.val * 1 + 0) * 4096 + n.val = b.val * 4096 + n.val
    omega)]
  rfl

/-- Likewise `colArr` gives the family ColK. -/
theorem reshape_col (c : Dev nD) (h : S8x1x4096.ShapeCasts S8x4096) :
    shapeCast S8x4096 (colArr m c) h = Cert.Chamfer.ColK (X m c) (Y m c) := by
  funext i
  obtain ⟨b, n, rfl⟩ : ∃ (b : Fin 8) (n : Fin 4096), i = ix2 b n := ⟨i 0, i 1, eq_ix2 i⟩
  rw [shapeCast_apply (colArr m c) h (ix2 b n) (ix3 b (0 : Fin 1) n) (by
    rw [Shape.rowMajor_val_three, Shape.rowMajor_val_two]
    show (b.val * 1 + 0) * 4096 + n.val = b.val * 4096 + n.val
    omega)]
  rfl

include hrow hcol in
/-- The scalar the lines after the region compute from the two results is the shared tail of RowK and ColK. -/
theorem tail_eq (c : Dev nD) :
    Pipeline.afterTail₀ cfgs (dats m) 0 (V0 m) [hostOps1] c main_v10
      = Cert.Chamfer.tail Cert.KernelIdeal.Gen.reducesTo_S8x4096_S_d0_1 Cert.KernelIdeal.Gen.h_S_ (Cert.Chamfer.RowK (X m c) (Y m c)) (Cert.Chamfer.ColK (X m c) (Y m c)) := by
  have eA : Pipeline.withArrays (cfgs 0).spec c (V0 m c) (fun w => (dats m 0 c).arrAt w (cfgs 0).N) (Proc.devRef .tc main_v2_0) = rowArr m c :=
    (Pipeline.withArrays_arr spec0 launch0.win.arr_inj c _ _ 2).trans (final2 m hrow c)
  have eB : Pipeline.withArrays (cfgs 0).spec c (V0 m c) (fun w => (dats m 0 c).arrAt w (cfgs 0).N) (Proc.devRef .tc main_v2_1) = colArr m c :=
    (Pipeline.withArrays_arr spec0 launch0.win.arr_inj c _ _ 3).trans (final3 m hcol c)
  unfold Pipeline.afterTail₀
  show StableHlo.after hostOps1 _ (Proc.devRef .tc main_v10) = _
  after_results
  rw [eA, eB]
  show Cert.Chamfer.tail Cert.KernelIdeal.Gen.reducesTo_S8x4096_S_d0_1 Cert.KernelIdeal.Gen.h_S_
      (shapeCast S8x4096 (rowArr m c) shapeCasts_S8x1x4096_S8x4096) (shapeCast S8x4096 (colArr m c) shapeCasts_S8x1x4096_S8x4096) = _
  rw [reshape_row, reshape_col]

/-! ## The run -/

include hrow hcol in
/-- Every run of the kernel program ends with its scalar at the shared tail of the families RowK and ColK of the
    two argument arrays, and with the two argument arrays as they were. -/
theorem kernel_run : θ_run defs (onTc (τ := τ) (main (F := Ideal))) ⟨m, fun _ => 0, ρ⟩ fun r => ∀ c : Dev nD,
      r.2.mem ((c.tc : Thread nD τ).loc main_v10)
          = Cert.Chamfer.tail Cert.KernelIdeal.Gen.reducesTo_S8x4096_S_d0_1 Cert.KernelIdeal.Gen.h_S_ (Cert.Chamfer.RowK (X m c) (Y m c)) (Cert.Chamfer.ColK (X m c) (Y m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v10 (Pipeline.mem_restRefs_of main_v10 (by decide) (by decide))).trans (tail_eq m hrow hcol c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end

end Cert.Chamfer.Kern

end
-- ==== Proof.lean ====
/-
  The nearest-neighbour (Chamfer) distance of two families of point sets: the kernel against its reference.

  Both programs take two arrays of eight sets of 4096 points of ℝ³ and return one number: the mean, over all points
  of the first family, of the distance to the nearest point of the matching set of the second, plus the same mean
  with the families exchanged, divided by 4096.

  The reference forms every squared distance as (|p|² + |q|²) − 2 (p · q), clips it below at zero, takes the root,
  and minimises along each axis. The kernel works one block of 1024 points of the first set against the whole
  second set at a time: it delivers each squared distance as one contraction of length five,
  (−2p₀, −2p₁, −2p₂, 1, |p|²) · (q₀, q₁, q₂, |q|², 1); minimises along the columns of the block at once, and along
  its rows into running minima carried from block to block; and clips and roots only the minima.

  Over the extended reals the two agree because
    * on real entries the two arrangements of the squared distance are equal (distributivity and cancellation —
      this is where finiteness of the inputs is used);
    * the clipped root is monotone, so it commutes with a minimum started from top;
    * a minimum over 4096 points started from top may be taken in four runs of 1024, folded in turn.
  The closing lines (two means, a sum, a division) are the same operations in both programs and are carried as one
  function of the two families of distances.
-/
import proofs.«144797_j47493748359773_2_alg».proof.Defs
import proofs.«144797_j47493748359773_2_alg».proof.Proof.Gen.Kernel
import proofs.«144797_j47493748359773_2_alg».proof.Proof.Gen.Kernel.Skeleton
import proofs.«144797_j47493748359773_2_alg».proof.Proof.Gen.Kernel.Launch
import proofs.«144797_j47493748359773_2_alg».proof.Proof.Gen.Kernel.Points
import proofs.«144797_j47493748359773_2_alg».proof.Proof.Gen.Kernel.Frame
import proofs.«144797_j47493748359773_2_alg».proof.Proof.Gen.KernelIdeal
import proofs.«144797_j47493748359773_2_alg».proof.Proof.Gen.KernelIdeal.Skeleton
import proofs.«144797_j47493748359773_2_alg».proof.Proof.Gen.KernelIdeal.Launch
import proofs.«144797_j47493748359773_2_alg».proof.Proof.Gen.KernelIdeal.Points
import proofs.«144797_j47493748359773_2_alg».proof.Proof.Gen.KernelIdeal.Frame
import proofs.«144797_j47493748359773_2_alg».proof.Proof.Gen.ReferenceIdeal
import proofs.«144797_j47493748359773_2_alg».proof.Proof.Gen.ReferenceIdeal.Run
import proofs.«144797_j47493748359773_2_alg».proof.Proof.Gen.ReferenceIdeal.Read
import proofs.«144797_j47493748359773_2_alg».proof.Proof.Gen.Pre_finite_inputs
import proofs.«144797_j47493748359773_2_alg».proof.Proof.Spec
import proofs.«144797_j47493748359773_2_alg».proof.Proof.Algebra
import proofs.«144797_j47493748359773_2_alg».proof.Proof.Finite
import proofs.«144797_j47493748359773_2_alg».proof.Proof.RefSide
import proofs.«144797_j47493748359773_2_alg».proof.Proof.KOuts
import proofs.«144797_j47493748359773_2_alg».proof.Proof.KFinal
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for reading it over the extended reals. -/
theorem preserves : Cert.preserves_Kernel_KernelIdeal := trivial

/-- Over the extended reals, from memories agreeing on the two arguments, both programs end at the shared closing
    lines applied to the two families of nearest-neighbour distances: the kernel's in the "clip and root the least
    squared distance" form, the reference's in the "least of the clipped roots" form, equal on finite inputs. -/
theorem algebraic : Cert.algebraic_KernelIdeal_ReferenceIdeal := by
  intro m ρ m' ρ' hpre hagree
  refine ⟨_, Cert.Chamfer.Kern.kernel_run m ρ (Cert.Chamfer.Kern.row_at m) (Cert.Chamfer.Kern.col_at m), ?_⟩
  refine (θ_run Cert.ReferenceIdeal.defs _ _).mono (fun _ h c => ⟨(h c).1.trans ?_, (h c).2⟩)
    (Cert.ReferenceIdeal.Value.run (F := Ideal) m' ρ')
  obtain ⟨hx, hy⟩ := Cert.Chamfer.finite_of_pre _ _ (hpre c)
  rw [Cert.ReferenceIdeal.Read.val_main_v23_eq, Cert.Chamfer.Ref.result_eq, (hagree c).1, (hagree c).2,
    ← Cert.Chamfer.RowK_eq_RowR _ _ hx hy, ← Cert.Chamfer.ColK_eq_ColR _ _ hx hy]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
